-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50 : Shape := ⟨2, ![64, 50]⟩
abbrev S256x192 : Shape := ⟨2, ![256, 192]⟩
abbrev S25 : Shape := ⟨1, ![25]⟩
abbrev S28x28 : Shape := ⟨2, ![28, 28]⟩
abbrev S_ : Shape := ⟨0, ![]⟩

class Facts : Prop where
  bcast_S_S64x50 : S_.BroadcastsInDim S64x50 (![] : Fin 0 → Fin S64x50.rank)
  reducesTo_S64x50_S_d0_1 : S64x50.ReducesTo [0, 1] S_
  h_S_ : 0 < S_.numel
  bcast_S_S256x192 : S_.BroadcastsInDim S256x192 (![] : Fin 0 → Fin S256x192.rank)
  reducesTo_S256x192_S_d0_1 : S256x192.ReducesTo [0, 1] S_
  bcast_S_S25 : S_.BroadcastsInDim S25 (![] : Fin 0 → Fin S25.rank)
  reducesTo_S25_S_d0 : S25.ReducesTo [0] S_
  bcast_S_S28x28 : S_.BroadcastsInDim S28x28 (![] : Fin 0 → Fin S28x28.rank)
  reducesTo_S28x28_S_d0_1 : S28x28.ReducesTo [0, 1] S_

variable [Facts]

def fn_part1 {F : FTy → Type} [FloatOps F] (main_arg4 : FVec F S25 .f32) (main_arg5 : FVec F S28x28 .f32) (main_v13 : IVec S_ 1) (main_v16 : IVec S25 1) : IVec S_ 1 :=
  let main_c_5 : IVec S_ 1 := constantI S_ 1 1#1
  let main_v17 : IVec S_ 1 := (fun x v => Host.reduce IntOp.andi x v reducesTo_S25_S_d0 h_S_) main_v16 main_c_5
  let main_v18 : IVec S_ 1 := andi main_v13 main_v17
  let main_v19 : FVec F S25 .f32 := Host.absf main_arg4
  let main_cst_6 : FVec F S_ .f32 := constant S_ .f32 0x7F800000#32
  let main_v20 : FVec F S25 .f32 := broadcastInDim S25 ![] bcast_S_S25 main_cst_6
  let main_v21 : IVec S25 1 := cmpf .olt main_v19 main_v20
  let main_c_7 : IVec S_ 1 := constantI S_ 1 1#1
  let main_v22 : IVec S_ 1 := (fun x v => Host.reduce IntOp.andi x v reducesTo_S25_S_d0 h_S_) main_v21 main_c_7
  let main_v23 : IVec S_ 1 := andi main_v18 main_v22
  let main_v24 : FVec F S28x28 .f32 := Host.absf main_arg5
  let main_cst_8 : FVec F S_ .f32 := constant S_ .f32 0x7F800000#32
  let main_v25 : FVec F S28x28 .f32 := broadcastInDim S28x28 ![] bcast_S_S28x28 main_cst_8
  let main_v26 : IVec S28x28 1 := cmpf .olt main_v24 main_v25
  let main_c_9 : IVec S_ 1 := constantI S_ 1 1#1
  let main_v27 : IVec S_ 1 := (fun x v => Host.reduce IntOp.andi x v reducesTo_S28x28_S_d0_1 h_S_) main_v26 main_c_9
  let main_v28 : IVec S_ 1 := andi main_v23 main_v27
  main_v28

def fn {F : FTy → Type} [FloatOps F] (main_arg0 : FVec F S64x50 .f32) (main_arg1 : FVec F S256x192 .f32) (main_arg2 : FVec F S256x192 .f32) (main_arg3 : FVec F S25 .f32) (main_arg4 : FVec F S25 .f32) (main_arg5 : FVec F S28x28 .f32) : IVec S_ 1 :=
  let main_v0 : FVec F S64x50 .f32 := Host.absf main_arg0
  let main_cst : FVec F S_ .f32 := constant S_ .f32 0x7F800000#32
  let main_v1 : FVec F S64x50 .f32 := broadcastInDim S64x50 ![] bcast_S_S64x50 main_cst
  let main_v2 : IVec S64x50 1 := cmpf .olt main_v0 main_v1
  let main_c : IVec S_ 1 := constantI S_ 1 1#1
  let main_v3 : IVec S_ 1 := (fun x v => Host.reduce IntOp.andi x v reducesTo_S64x50_S_d0_1 h_S_) main_v2 main_c
  let main_v4 : FVec F S256x192 .f32 := Host.absf main_arg1
  let main_cst_0 : FVec F S_ .f32 := constant S_ .f32 0x7F800000#32
  let main_v5 : FVec F S256x192 .f32 := broadcastInDim S256x192 ![] bcast_S_S256x192 main_cst_0
  let main_v6 : IVec S256x192 1 := cmpf .olt main_v4 main_v5
  let main_c_1 : IVec S_ 1 := constantI S_ 1 1#1
  let main_v7 : IVec S_ 1 := (fun x v => Host.reduce IntOp.andi x v reducesTo_S256x192_S_d0_1 h_S_) main_v6 main_c_1
  let main_v8 : IVec S_ 1 := andi main_v3 main_v7
  let main_v9 : FVec F S256x192 .f32 := Host.absf main_arg2
  let main_cst_2 : FVec F S_ .f32 := constant S_ .f32 0x7F800000#32
  let main_v10 : FVec F S256x192 .f32 := broadcastInDim S256x192 ![] bcast_S_S256x192 main_cst_2
  let main_v11 : IVec S256x192 1 := cmpf .olt main_v9 main_v10
  let main_c_3 : IVec S_ 1 := constantI S_ 1 1#1
  let main_v12 : IVec S_ 1 := (fun x v => Host.reduce IntOp.andi x v reducesTo_S256x192_S_d0_1 h_S_) main_v11 main_c_3
  let main_v13 : IVec S_ 1 := andi main_v8 main_v12
  let main_v14 : FVec F S25 .f32 := Host.absf main_arg3
  let main_cst_4 : FVec F S_ .f32 := constant S_ .f32 0x7F800000#32
  let main_v15 : FVec F S25 .f32 := broadcastInDim S25 ![] bcast_S_S25 main_cst_4
  let main_v16 : IVec S25 1 := cmpf .olt main_v14 main_v15
  fn_part1 (F := F) main_arg4 main_arg5 main_v13 main_v16
-- ==== Kernel.lean ====
abbrev S64x50 : Shape := ⟨2, ![64, 50]⟩
abbrev S256x192 : Shape := ⟨2, ![256, 192]⟩
abbrev S25 : Shape := ⟨1, ![25]⟩
abbrev S28x28 : Shape := ⟨2, ![28, 28]⟩
abbrev S64x25 : Shape := ⟨2, ![64, 25]⟩
abbrev S1x25 : Shape := ⟨2, ![1, 25]⟩
abbrev S25x25 : Shape := ⟨2, ![25, 25]⟩
abbrev S3x25 : Shape := ⟨2, ![3, 25]⟩
abbrev S64x3 : Shape := ⟨2, ![64, 3]⟩
abbrev S64x256x192 : Shape := ⟨3, ![64, 256, 192]⟩
abbrev S32x192 : Shape := ⟨2, ![32, 192]⟩
abbrev S64x32x192 : Shape := ⟨3, ![64, 32, 192]⟩
abbrev S32x192x1 : Shape := ⟨3, ![32, 192, 1]⟩
abbrev S1x1x25 : Shape := ⟨3, ![1, 1, 25]⟩
abbrev S32x192x25 : Shape := ⟨3, ![32, 192, 25]⟩
abbrev S6144x25 : Shape := ⟨2, ![6144, 25]⟩
abbrev S25x64 : Shape := ⟨2, ![25, 64]⟩
abbrev S6144x64 : Shape := ⟨2, ![6144, 64]⟩
abbrev S32x192x64 : Shape := ⟨3, ![32, 192, 64]⟩
abbrev S64x1 : Shape := ⟨2, ![64, 1]⟩
abbrev S64 : Shape := ⟨1, ![64]⟩
abbrev S1x1x64 : Shape := ⟨3, ![1, 1, 64]⟩
abbrev S64x256x192x1 : Shape := ⟨4, ![64, 256, 192, 1]⟩
abbrev S64x256x192x2 : Shape := ⟨4, ![64, 256, 192, 2]⟩

abbrev nBuf : Space → Nat
  | .hbm => 29
  | .vmem => 14
  | .smem => 0
  | _ => 0

abbrev bufTy : (tb : Table) → Fin (tcTables nBuf tb) → BufTy
  | .hbm, ⟨0, _⟩ => ⟨S64x50, .f32⟩
  | .hbm, ⟨1, _⟩ => ⟨S256x192, .f32⟩
  | .hbm, ⟨2, _⟩ => ⟨S256x192, .f32⟩
  | .hbm, ⟨3, _⟩ => ⟨S25, .f32⟩
  | .hbm, ⟨4, _⟩ => ⟨S25, .f32⟩
  | .hbm, ⟨5, _⟩ => ⟨S28x28, .f32⟩
  | .hbm, ⟨6, _⟩ => ⟨S64x25, .f32⟩
  | .hbm, ⟨7, _⟩ => ⟨S1x25, .f32⟩
  | .hbm, ⟨8, _⟩ => ⟨S64x25, .f32⟩
  | .hbm, ⟨9, _⟩ => ⟨S64x25, .f32⟩
  | .hbm, ⟨10, _⟩ => ⟨S64x25, .f32⟩
  | .hbm, ⟨11, _⟩ => ⟨S1x25, .f32⟩
  | .hbm, ⟨12, _⟩ => ⟨S64x25, .f32⟩
  | .hbm, ⟨13, _⟩ => ⟨S64x25, .f32⟩
  | .hbm, ⟨14, _⟩ => ⟨S25x25, .f32⟩
  | .hbm, ⟨15, _⟩ => ⟨S64x25, .f32⟩
  | .hbm, ⟨16, _⟩ => ⟨S25x25, .f32⟩
  | .hbm, ⟨17, _⟩ => ⟨S64x25, .f32⟩
  | .hbm, ⟨18, _⟩ => ⟨S3x25, .f32⟩
  | .hbm, ⟨19, _⟩ => ⟨S64x3, .f32⟩
  | .hbm, ⟨20, _⟩ => ⟨S3x25, .f32⟩
  | .hbm, ⟨21, _⟩ => ⟨S64x3, .f32⟩
  | .hbm, ⟨22, _⟩ => ⟨S1x25, .f32⟩
  | .hbm, ⟨23, _⟩ => ⟨S1x25, .f32⟩
  | .hbm, ⟨24, _⟩ => ⟨S64x256x192, .f32⟩
  | .hbm, ⟨25, _⟩ => ⟨S64x256x192, .f32⟩
  | .hbm, ⟨26, _⟩ => ⟨S64x256x192x1, .f32⟩
  | .hbm, ⟨27, _⟩ => ⟨S64x256x192x1, .f32⟩
  | .hbm, ⟨28, _⟩ => ⟨S64x256x192x2, .f32⟩
  | .local _ .vmem, ⟨0, _⟩ => ⟨S32x192, .f32⟩
  | .local _ .vmem, ⟨1, _⟩ => ⟨S32x192, .f32⟩
  | .local _ .vmem, ⟨2, _⟩ => ⟨S32x192, .f32⟩
  | .local _ .vmem, ⟨3, _⟩ => ⟨S32x192, .f32⟩
  | .local _ .vmem, ⟨4, _⟩ => ⟨S1x25, .f32⟩
  | .local _ .vmem, ⟨5, _⟩ => ⟨S1x25, .f32⟩
  | .local _ .vmem, ⟨6, _⟩ => ⟨S64x25, .f32⟩
  | .local _ .vmem, ⟨7, _⟩ => ⟨S64x25, .f32⟩
  | .local _ .vmem, ⟨8, _⟩ => ⟨S64x3, .f32⟩
  | .local _ .vmem, ⟨9, _⟩ => ⟨S64x3, .f32⟩
  | .local _ .vmem, ⟨10, _⟩ => ⟨S64x32x192, .f32⟩
  | .local _ .vmem, ⟨11, _⟩ => ⟨S64x32x192, .f32⟩
  | .local _ .vmem, ⟨12, _⟩ => ⟨S64x32x192, .f32⟩
  | .local _ .vmem, ⟨13, _⟩ => ⟨S64x32x192, .f32⟩
  | _, _ => ⟨S64x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x25 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x25 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x25 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x25 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x32x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x32x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S64x50_S64x25_0_0 : S64x50.Slices ![0, 0] S64x25
  bcast_S25_S1x25_1 : S25.BroadcastsInDim S1x25 (![1] : Fin 1 → Fin S1x25.rank)
  bcast_S1x25_S64x25_0_1 : S1x25.BroadcastsInDim S64x25 (![0, 1] : Fin 2 → Fin S64x25.rank)
  slices_S64x50_S64x25_0_25 : S64x50.Slices ![0, 25] S64x25
  slices_S28x28_S25x25_0_0 : S28x28.Slices ![0, 0] S25x25
  slices_S28x28_S3x25_25_0 : S28x28.Slices ![25, 0] S3x25
  shapeCasts_S25_S1x25 : S25.ShapeCasts S1x25
  inb_S32x192_S32x192_0_0 : ∀ a, (![0, 0] : Fin 2 → Nat) a + S32x192.size a ≤ S32x192.size a
  h_S32x192 : 0 < S32x192.numel
  inb_S1x25_S1x25_0_0 : ∀ a, (![0, 0] : Fin 2 → Nat) a + S1x25.size a ≤ S1x25.size a
  h_S1x25 : 0 < S1x25.numel
  shapeCasts_S1x25_S25 : S1x25.ShapeCasts S25
  inb_S64x25_S64x25_0_0 : ∀ a, (![0, 0] : Fin 2 → Nat) a + S64x25.size a ≤ S64x25.size a
  h_S64x25 : 0 < S64x25.numel
  shapeCasts_S64x25_S64x25 : S64x25.ShapeCasts S64x25
  inb_S64x3_S64x3_0_0 : ∀ a, (![0, 0] : Fin 2 → Nat) a + S64x3.size a ≤ S64x3.size a
  h_S64x3 : 0 < S64x3.numel
  shapeCasts_S64x3_S64x3 : S64x3.ShapeCasts S64x3
  shapeCasts_S32x192_S32x192x1 : S32x192.ShapeCasts S32x192x1
  shapeCasts_S25_S1x1x25 : S25.ShapeCasts S1x1x25
  broadcasts_S32x192x1_S32x192x25 : S32x192x1.Broadcasts S32x192x25
  broadcasts_S1x1x25_S32x192x25 : S1x1x25.Broadcasts S32x192x25
  shapeCasts_S32x192x25_S6144x25 : S32x192x25.ShapeCasts S6144x25
  bitsLt_bf16_f32 : FTy.bits .bf16 < FTy.bits .f32
  transposes_S64x25_p1_0_S25x64 : S64x25.Transposes [1, 0] S25x64
  shapeCasts_S6144x64_S32x192x64 : S6144x64.ShapeCasts S32x192x64
  slices_S64x3_o0_0_S64x1 : S64x3.Slices ![0, 0] S64x1
  shapeCasts_S64x1_S64 : S64x1.ShapeCasts S64
  shapeCasts_S64_S1x1x64 : S64.ShapeCasts S1x1x64
  slices_S64x3_o0_1_S64x1 : S64x3.Slices ![0, 1] S64x1
  slices_S64x3_o0_2_S64x1 : S64x3.Slices ![0, 2] S64x1
  broadcasts_S1x1x64_S32x192x64 : S1x1x64.Broadcasts S32x192x64
  broadcasts_S32x192x1_S32x192x64 : S32x192x1.Broadcasts S32x192x64
  transposes_S32x192x64_p2_0_1_S64x32x192 : S32x192x64.Transposes [2, 0, 1] S64x32x192
  inb_S64x32x192_S64x32x192_0_0_0 : ∀ a, (![0, 0, 0] : Fin 3 → Nat) a + S64x32x192.size a ≤ S64x32x192.size a
  h_S64x32x192 : 0 < S64x32x192.numel
  bcast_S64x256x192_S64x256x192x1_0_1_2 : S64x256x192.BroadcastsInDim S64x256x192x1 (![0, 1, 2] : Fin 3 → Fin S64x256x192x1.rank)
  concatenates_S64x256x192x1_S64x256x192x1_S64x256x192x2_d3 : Shape.Concatenates [S64x256x192x1, S64x256x192x1] S64x256x192x2 3
  dot_S64x25_S25x25_S64x25_1_1_0_0_n_n_wf : DotDims.WF S64x25 S25x25 S64x25 [1] [1] [0] [0] [] []
  dot_S64x25_S3x25_S64x3_1_1_0_0_n_n_wf : DotDims.WF S64x25 S3x25 S64x3 [1] [1] [0] [0] [] []
  dot_S6144x25_S25x64_S6144x64_1_0_0_1_n_n_wf : DotDims.WF S6144x25 S25x64 S6144x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x192.size a ≤ S256x192.size a
  hwx0_0 : ∀ i : grid0.Coords, EltTy.bits .f32 = 32 ∨ (Rect.block (s := S256x192) S32x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x192.size a ≤ S256x192.size a
  hwx0_1 : ∀ i : grid0.Coords, EltTy.bits .f32 = 32 ∨ (Rect.block (s := S256x192) S32x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x25.size a ≤ S1x25.size a
  hwx0_2 : ∀ i : grid0.Coords, EltTy.bits .f32 = 32 ∨ (Rect.block (s := S1x25) S1x25.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x25.size a ≤ S1x25.size a
  hwx0_3 : ∀ i : grid0.Coords, EltTy.bits .f32 = 32 ∨ (Rect.block (s := S1x25) S1x25.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x25.size a ≤ S64x25.size a
  hwx0_4 : ∀ i : grid0.Coords, EltTy.bits .f32 = 32 ∨ (Rect.block (s := S64x25) S64x25.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x25.size a ≤ S64x25.size a
  hwx0_5 : ∀ i : grid0.Coords, EltTy.bits .f32 = 32 ∨ (Rect.block (s := S64x25) S64x25.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x3.size a ≤ S64x3.size a
  hwx0_6 : ∀ i : grid0.Coords, EltTy.bits .f32 = 32 ∨ (Rect.block (s := S64x3) S64x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .f32 = 32 ∨ (Rect.block (s := S64x3) S64x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x32x192.size a ≤ S64x256x192.size a
  hwx0_8 : ∀ i : grid0.Coords, EltTy.bits .f32 = 32 ∨ (Rect.block (s := S64x256x192) S64x32x192.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x32x192.size a ≤ S64x256x192.size a
  hwx0_9 : ∀ i : grid0.Coords, EltTy.bits .f32 = 32 ∨ (Rect.block (s := S64x256x192) S64x32x192.size (cc0_transform_9 i) (hinb0_9 i)).WholeWords (EltTy.packing .f32)

variable [Facts₀]

def dot_S64x25_S25x25_S64x25_1_1_0_0_n_n : DotDims S64x25 S25x25 S64x25 where
  lhsContracting := [1]
  rhsContracting := [1]
  lhsNonContracting := [0]
  rhsNonContracting := [0]
  lhsBatch := []
  rhsBatch := []
  wf := dot_S64x25_S25x25_S64x25_1_1_0_0_n_n_wf
def dot_S64x25_S3x25_S64x3_1_1_0_0_n_n : DotDims S64x25 S3x25 S64x3 where
  lhsContracting := [1]
  rhsContracting := [1]
  lhsNonContracting := [0]
  rhsNonContracting := [0]
  lhsBatch := []
  rhsBatch := []
  wf := dot_S64x25_S3x25_S64x3_1_1_0_0_n_n_wf
def dot_S6144x25_S25x64_S6144x64_1_0_0_1_n_n : DotDims S6144x25 S25x64 S6144x64 where
  lhsContracting := [1]
  rhsContracting := [0]
  lhsNonContracting := [0]
  rhsNonContracting := [1]
  lhsBatch := []
  rhsBatch := []
  wf := dot_S6144x25_S25x64_S6144x64_1_0_0_1_n_n_wf

abbrev win0_0 : Pipeline.Window sig grid0 :=
  Pipeline.Window.ofSpec (Memref.whole main_arg1) S32x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x25.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x25.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x25.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S64x25.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S64x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_0) S64x32x192.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18_1) S64x32x192.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x50 : Shape := ⟨2, ![64, 50]⟩
abbrev S256x192 : Shape := ⟨2, ![256, 192]⟩
abbrev S25 : Shape := ⟨1, ![25]⟩
abbrev S28x28 : Shape := ⟨2, ![28, 28]⟩
abbrev S64x25 : Shape := ⟨2, ![64, 25]⟩
abbrev S1x25 : Shape := ⟨2, ![1, 25]⟩
abbrev S25x25 : Shape := ⟨2, ![25, 25]⟩
abbrev S3x25 : Shape := ⟨2, ![3, 25]⟩
abbrev S64x3 : Shape := ⟨2, ![64, 3]⟩
abbrev S256x192x1 : Shape := ⟨3, ![256, 192, 1]⟩
abbrev S1x1x25 : Shape := ⟨3, ![1, 1, 25]⟩
abbrev S256x192x25 : Shape := ⟨3, ![256, 192, 25]⟩
abbrev S_ : Shape := ⟨0, ![]⟩
abbrev S64x1 : Shape := ⟨2, ![64, 1]⟩
abbrev S64 : Shape := ⟨1, ![64]⟩
abbrev S64x1x1 : Shape := ⟨3, ![64, 1, 1]⟩
abbrev S1x256x192 : Shape := ⟨3, ![1, 256, 192]⟩
abbrev S64x256x192 : Shape := ⟨3, ![64, 256, 192]⟩
abbrev S64x256x192x1 : Shape := ⟨4, ![64, 256, 192, 1]⟩
abbrev S64x256x192x2 : Shape := ⟨4, ![64, 256, 192, 2]⟩

abbrev nBuf : Space → Nat
  | .hbm => 91
  | .vmem => 0
  | .smem => 0
  | _ => 0

abbrev bufTy : (tb : Table) → Fin (tcTables nBuf tb) → BufTy
  | .hbm, ⟨0, _⟩ => ⟨S64x50, .f32⟩
  | .hbm, ⟨1, _⟩ => ⟨S256x192, .f32⟩
  | .hbm, ⟨2, _⟩ => ⟨S256x192, .f32⟩
  | .hbm, ⟨3, _⟩ => ⟨S25, .f32⟩
  | .hbm, ⟨4, _⟩ => ⟨S25, .f32⟩
  | .hbm, ⟨5, _⟩ => ⟨S28x28, .f32⟩
  | .hbm, ⟨6, _⟩ => ⟨S64x25, .f32⟩
  | .hbm, ⟨7, _⟩ => ⟨S1x25, .f32⟩
  | .hbm, ⟨8, _⟩ => ⟨S64x25, .f32⟩
  | .hbm, ⟨9, _⟩ => ⟨S64x25, .f32⟩
  | .hbm, ⟨10, _⟩ => ⟨S64x25, .f32⟩
  | .hbm, ⟨11, _⟩ => ⟨S1x25, .f32⟩
  | .hbm, ⟨12, _⟩ => ⟨S64x25, .f32⟩
  | .hbm, ⟨13, _⟩ => ⟨S64x25, .f32⟩
  | .hbm, ⟨14, _⟩ => ⟨S25x25, .f32⟩
  | .hbm, ⟨15, _⟩ => ⟨S64x25, .f32⟩
  | .hbm, ⟨16, _⟩ => ⟨S25x25, .f32⟩
  | .hbm, ⟨17, _⟩ => ⟨S64x25, .f32⟩
  | .hbm, ⟨18, _⟩ => ⟨S3x25, .f32⟩
  | .hbm, ⟨19, _⟩ => ⟨S64x3, .f32⟩
  | .hbm, ⟨20, _⟩ => ⟨S3x25, .f32⟩
  | .hbm, ⟨21, _⟩ => ⟨S64x3, .f32⟩
  | .hbm, ⟨22, _⟩ => ⟨S256x192x1, .f32⟩
  | .hbm, ⟨23, _⟩ => ⟨S1x1x25, .f32⟩
  | .hbm, ⟨24, _⟩ => ⟨S256x192x25, .f32⟩
  | .hbm, ⟨25, _⟩ => ⟨S256x192x25, .f32⟩
  | .hbm, ⟨26, _⟩ => ⟨S256x192x25, .f32⟩
  | .hbm, ⟨27, _⟩ => ⟨S256x192x25, .f32⟩
  | .hbm, ⟨28, _⟩ => ⟨S256x192x1, .f32⟩
  | .hbm, ⟨29, _⟩ => ⟨S1x1x25, .f32⟩
  | .hbm, ⟨30, _⟩ => ⟨S256x192x25, .f32⟩
  | .hbm, ⟨31, _⟩ => ⟨S256x192x25, .f32⟩
  | .hbm, ⟨32, _⟩ => ⟨S256x192x25, .f32⟩
  | .hbm, ⟨33, _⟩ => ⟨S256x192x25, .f32⟩
  | .hbm, ⟨34, _⟩ => ⟨S256x192x25, .f32⟩
  | .hbm, ⟨35, _⟩ => ⟨S_, .f32⟩
  | .hbm, ⟨36, _⟩ => ⟨S256x192x25, .f32⟩
  | .hbm, ⟨37, _⟩ => ⟨S256x192x25, .i1⟩
  | .hbm, ⟨38, _⟩ => ⟨S_, .f32⟩
  | .hbm, ⟨39, _⟩ => ⟨S_, .f32⟩
  | .hbm, ⟨40, _⟩ => ⟨S256x192x25, .f32⟩
  | .hbm, ⟨41, _⟩ => ⟨S256x192x25, .f32⟩
  | .hbm, ⟨42, _⟩ => ⟨S256x192x25, .f32⟩
  | .hbm, ⟨43, _⟩ => ⟨S256x192x25, .f32⟩
  | .hbm, ⟨44, _⟩ => ⟨S64x1, .f32⟩
  | .hbm, ⟨45, _⟩ => ⟨S64, .f32⟩
  | .hbm, ⟨46, _⟩ => ⟨S64x1x1, .f32⟩
  | .hbm, ⟨47, _⟩ => ⟨S64x1, .f32⟩
  | .hbm, ⟨48, _⟩ => ⟨S64, .f32⟩
  | .hbm, ⟨49, _⟩ => ⟨S64x1x1, .f32⟩
  | .hbm, ⟨50, _⟩ => ⟨S1x256x192, .f32⟩
  | .hbm, ⟨51, _⟩ => ⟨S64x256x192, .f32⟩
  | .hbm, ⟨52, _⟩ => ⟨S64x256x192, .f32⟩
  | .hbm, ⟨53, _⟩ => ⟨S64x256x192, .f32⟩
  | .hbm, ⟨54, _⟩ => ⟨S64x256x192, .f32⟩
  | .hbm, ⟨55, _⟩ => ⟨S64x256x192, .f32⟩
  | .hbm, ⟨56, _⟩ => ⟨S64x1, .f32⟩
  | .hbm, ⟨57, _⟩ => ⟨S64, .f32⟩
  | .hbm, ⟨58, _⟩ => ⟨S64x1x1, .f32⟩
  | .hbm, ⟨59, _⟩ => ⟨S1x256x192, .f32⟩
  | .hbm, ⟨60, _⟩ => ⟨S64x256x192, .f32⟩
  | .hbm, ⟨61, _⟩ => ⟨S64x256x192, .f32⟩
  | .hbm, ⟨62, _⟩ => ⟨S64x256x192, .f32⟩
  | .hbm, ⟨63, _⟩ => ⟨S64x256x192, .f32⟩
  | .hbm, ⟨64, _⟩ => ⟨S64x256x192, .f32⟩
  | .hbm, ⟨65, _⟩ => ⟨S64x256x192, .f32⟩
  | .hbm, ⟨66, _⟩ => ⟨S64x1, .f32⟩
  | .hbm, ⟨67, _⟩ => ⟨S64, .f32⟩
  | .hbm, ⟨68, _⟩ => ⟨S64x1x1, .f32⟩
  | .hbm, ⟨69, _⟩ => ⟨S64x1, .f32⟩
  | .hbm, ⟨70, _⟩ => ⟨S64, .f32⟩
  | .hbm, ⟨71, _⟩ => ⟨S64x1x1, .f32⟩
  | .hbm, ⟨72, _⟩ => ⟨S1x256x192, .f32⟩
  | .hbm, ⟨73, _⟩ => ⟨S64x256x192, .f32⟩
  | .hbm, ⟨74, _⟩ => ⟨S64x256x192, .f32⟩
  | .hbm, ⟨75, _⟩ => ⟨S64x256x192, .f32⟩
  | .hbm, ⟨76, _⟩ => ⟨S64x256x192, .f32⟩
  | .hbm, ⟨77, _⟩ => ⟨S64x256x192, .f32⟩
  | .hbm, ⟨78, _⟩ => ⟨S64x1, .f32⟩
  | .hbm, ⟨79, _⟩ => ⟨S64, .f32⟩
  | .hbm, ⟨80, _⟩ => ⟨S64x1x1, .f32⟩
  | .hbm, ⟨81, _⟩ => ⟨S1x256x192, .f32⟩
  | .hbm, ⟨82, _⟩ => ⟨S64x256x192, .f32⟩
  | .hbm, ⟨83, _⟩ => ⟨S64x256x192, .f32⟩
  | .hbm, ⟨84, _⟩ => ⟨S64x256x192, .f32⟩
  | .hbm, ⟨85, _⟩ => ⟨S64x256x192, .f32⟩
  | .hbm, ⟨86, _⟩ => ⟨S64x256x192, .f32⟩
  | .hbm, ⟨87, _⟩ => ⟨S64x256x192, .f32⟩
  | .hbm, ⟨88, _⟩ => ⟨S64x256x192x1, .f32⟩
  | .hbm, ⟨89, _⟩ => ⟨S64x256x192x1, .f32⟩
  | .hbm, ⟨90, _⟩ => ⟨S64x256x192x2, .f32⟩
  | _, _ => ⟨S64x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩

abbrev nD : Nat := 1
abbrev τ : Topo := Topo.v7x

variable {F : FTy → Type} [FloatOps F]

class Facts₀ : Prop where
  slices_S64x50_S64x25_0_0 : S64x50.Slices ![0, 0] S64x25
  bcast_S25_S1x25_1 : S25.BroadcastsInDim S1x25 (![1] : Fin 1 → Fin S1x25.rank)
  bcast_S1x25_S64x25_0_1 : S1x25.BroadcastsInDim S64x25 (![0, 1] : Fin 2 → Fin S64x25.rank)
  slices_S64x50_S64x25_0_25 : S64x50.Slices ![0, 25] S64x25
  slices_S28x28_S25x25_0_0 : S28x28.Slices ![0, 0] S25x25
  slices_S28x28_S3x25_25_0 : S28x28.Slices ![25, 0] S3x25
  bcast_S256x192_S256x192x1_0_1 : S256x192.BroadcastsInDim S256x192x1 (![0, 1] : Fin 2 → Fin S256x192x1.rank)
  bcast_S25_S1x1x25_2 : S25.BroadcastsInDim S1x1x25 (![2] : Fin 1 → Fin S1x1x25.rank)
  bcast_S256x192x1_S256x192x25_0_1_2 : S256x192x1.BroadcastsInDim S256x192x25 (![0, 1, 2] : Fin 3 → Fin S256x192x25.rank)
  bcast_S1x1x25_S256x192x25_0_1_2 : S1x1x25.BroadcastsInDim S256x192x25 (![0, 1, 2] : Fin 3 → Fin S256x192x25.rank)
  bcast_S_S256x192x25 : S_.BroadcastsInDim S256x192x25 (![] : Fin 0 → Fin S256x192x25.rank)
  slices_S64x3_S64x1_0_0 : S64x3.Slices ![0, 0] S64x1
  shapeCasts_S64x1_S64 : S64x1.ShapeCasts S64
  bcast_S64_S64x1x1_0 : S64.BroadcastsInDim S64x1x1 (![0] : Fin 1 → Fin S64x1x1.rank)
  slices_S64x3_S64x1_0_1 : S64x3.Slices ![0, 1] S64x1
  bcast_S256x192_S1x256x192_1_2 : S256x192.BroadcastsInDim S1x256x192 (![1, 2] : Fin 2 → Fin S1x256x192.rank)
  bcast_S64x1x1_S64x256x192_0_1_2 : S64x1x1.BroadcastsInDim S64x256x192 (![0, 1, 2] : Fin 3 → Fin S64x256x192.rank)
  bcast_S1x256x192_S64x256x192_0_1_2 : S1x256x192.BroadcastsInDim S64x256x192 (![0, 1, 2] : Fin 3 → Fin S64x256x192.rank)
  slices_S64x3_S64x1_0_2 : S64x3.Slices ![0, 2] S64x1
  bcast_S64x256x192_S64x256x192x1_0_1_2 : S64x256x192.BroadcastsInDim S64x256x192x1 (![0, 1, 2] : Fin 3 → Fin S64x256x192x1.rank)
  concatenates_S64x256x192x1_S64x256x192x1_S64x256x192x2_d3 : Shape.Concatenates [S64x256x192x1, S64x256x192x1] S64x256x192x2 3
  dot_S64x25_S25x25_S64x25_1_1_0_0_n_n_wf : DotDims.WF S64x25 S25x25 S64x25 [1] [1] [0] [0] [] []
  dot_S64x25_S3x25_S64x3_1_1_0_0_n_n_wf : DotDims.WF S64x25 S3x25 S64x3 [1] [1] [0] [0] [] []
  dot_S64x25_S256x192x25_S64x256x192_1_2_0_01_n_n_wf : DotDims.WF S64x25 S256x192x25 S64x256x192 [1] [2] [0] [0, 1] [] []

variable [Facts₀]

def dot_S64x25_S25x25_S64x25_1_1_0_0_n_n : DotDims S64x25 S25x25 S64x25 where
  lhsContracting := [1]
  rhsContracting := [1]
  lhsNonContracting := [0]
  rhsNonContracting := [0]
  lhsBatch := []
  rhsBatch := []
  wf := dot_S64x25_S25x25_S64x25_1_1_0_0_n_n_wf
def dot_S64x25_S3x25_S64x3_1_1_0_0_n_n : DotDims S64x25 S3x25 S64x3 where
  lhsContracting := [1]
  rhsContracting := [1]
  lhsNonContracting := [0]
  rhsNonContracting := [0]
  lhsBatch := []
  rhsBatch := []
  wf := dot_S64x25_S3x25_S64x3_1_1_0_0_n_n_wf
def dot_S64x25_S256x192x25_S64x256x192_1_2_0_01_n_n : DotDims S64x25 S256x192x25 S64x256x192 where
  lhsContracting := [1]
  rhsContracting := [2]
  lhsNonContracting := [0]
  rhsNonContracting := [0, 1]
  lhsBatch := []
  rhsBatch := []
  wf := dot_S64x25_S256x192x25_S64x256x192_1_2_0_01_n_n_wf

class Facts : Prop extends Facts₀ where

variable [Facts]
-- ==== Proof.LibUnitAxisLayout.lean ====
/-
  Two keepdims layouts read at an index, at any extents: a matrix `[a, b]` given a unit axis in the LAST place
  (`[a, b, 1]`) or in the MIDDLE (`[a, 1, b]`) by a shape cast, and such an array broadcast along its unit axis to
  `[a, b, c]` / `[a, c, b]`. A shape cast keeps the row-major position, and a unit axis contributes nothing to it, so
  the cast reads the matrix at the two remaining coordinates; the broadcast reads its operand at coordinate `0` of the
  unit axis. Composed: a per-row scalar spread along the lanes, and a per-lane row spread down the rows.
-/
import Idealize.ShloMosaic.Lib.ValueIdx
import Idealize.ShloMosaic.Lib.Pipeline.Value

noncomputable section

namespace Idealize.ShloMosaic.UnitAxisLayout

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun d => match d with
    | ⟨0, _⟩ => by
        show i.val = if a = 1 then 0 else i.val
        have := i.isLt; split <;> omega
    | ⟨1, _⟩ => by
        show j.val = if b = 1 then 0 else j.val
        have := j.isLt; split <;> omega
    | ⟨2, _⟩ => by
        show 0 = if (1 : Nat) = 1 then 0 else k.val
        rw [if_pos rfl])

/-- An `[a, 1, b]` array broadcast to `[a, c, b]` reads, at `(i, k, j)`, the operand at `(i, 0, j)`. -/
theorem broadcastTo_a1b_acb_apply {a b c : ℕ} (x : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ x h (ix3 i k j) = x (ix3 i (0 : Fin 1) j) :=
  broadcastTo_apply x h _ _ (fun d => match d with
    | ⟨0, _⟩ => by
        show i.val = if a = 1 then 0 else i.val
        have := i.isLt; split <;> omega
    | ⟨1, _⟩ => by
        show 0 = if (1 : Nat) = 1 then 0 else k.val
        rw [if_pos rfl]
    | ⟨2, _⟩ => by
        show j.val = if b = 1 then 0 else j.val
        have := j.isLt; split <;> omega)

/-- A per-row scalar spread along the lanes: `[a, b]` cast to `[a, b, 1]` and broadcast to `[a, b, c]` reads, at
    `(i, j, k)`, the matrix at `(i, j)`. -/
theorem spread_lanes_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- A per-lane row spread down the rows: `[a, b]` cast to `[a, 1, b]` and broadcast to `[a, c, b]` reads, at
    `(i, k, j)`, the matrix at `(i, j)`. -/
theorem spread_rows_apply {a b c : ℕ} (x : (⟨2, ![a, b]⟩ : Shape).Idx → α)
    (hc : (⟨2, ![a, b]⟩ : Shape).ShapeCasts ⟨3, ![a, 1, b]⟩) (hb : (⟨3, ![a, 1, b]⟩ : Shape).Broadcasts ⟨3, ![a, c, b]⟩)
    (i : Fin a) (k : Fin c) (j : Fin b) :
    broadcastTo ⟨3, ![a, c, b]⟩ (shapeCast ⟨3, ![a, 1, b]⟩ x hc) hb (ix3 i k j) = x (ix2 i j) :=
  (broadcastTo_a1b_acb_apply _ hb i k j).trans (shapeCast_ab_a1b_apply x hc i 0 j)

end Idealize.ShloMosaic.UnitAxisLayout

end
-- ==== Proof.LibRank3Layout.lean ====
/-
  Layout operations on rank-3 arrays read at an index given by coordinates, at any extents and any element type.

  * a vector `[c]` given two leading unit axes (`[1, 1, c]`) by a shape cast, and such an array broadcast to
    `[a, b, c]`: the entry at `(i, j, k)` is the vector's entry `k`;
  * a column `[a, 1]` cast to a vector `[a]`: the entry at `i` is the column's entry `(i, 0)`;
  * the two leading axes of `[a, b, c]` merged into one (`[m, c]`, `m = a * b`) and split again: a shape cast keeps the
    row-major position, and row `q = i * b + j` of the merged array is row `(i, j)` of the rank-3 one;
  * the rotation of the axes that brings the last axis to the front (permutation `[2, 0, 1]`): the entry at
    `(k, i, j)` of the result is the entry `(i, j, k)` of the operand.
-/
import Idealize.ShloMosaic.Lib.ValueIdx
import Idealize.ShloMosaic.Lib.Pipeline.Value

noncomputable section

namespace Cert.Lib.Rank3Layout

open Idealize.ShloMosaic Idealize.ShloMosaic.ValueIdx

variable {α : Type}

/-- A vector `[c]` cast to `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp [hu, hv])

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (fun d => match d with
    | ⟨0, _⟩ => by
        show 0 = if (1 : Nat) = 1 then 0 else i.val
        rw [if_pos rfl]
    | ⟨1, _⟩ => by
        show 0 = if (1 : Nat) = 1 then 0 else j.val
        rw [if_pos rfl]
    | ⟨2, _⟩ => by
        show k.val = if c = 1 then 0 else k.val
        have := k.isLt; split <;> omega)

/-- A vector spread over every row and column: `[c]` cast to `[1, 1, c]` and broadcast to `[a, b, c]` reads, at
    `(i, j, k)`, the vector at `k`. -/
theorem spread_planes_apply {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x hc) hb (ix3 i j k) = x (ix1 k) :=
  (broadcastTo_11c_abc_apply _ hb i j k).trans (shapeCast_c_11c_apply x hc 0 0 k)

/-- A column `[a, 1]` cast to a vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- `[a, b, c]` with its two leading axes merged (`[m, c]`) reads, at `(q, k)` with `q = i * b + j`, the operand at
    `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (q : Fin m)
    (hq : q.val = i.val * b + j.val) :
    shapeCast ⟨2, ![m, c]⟩ x h (ix2 q k) = x (ix3 i j k) :=
  shapeCast_apply x h _ _ (by
    rw [Shape.rowMajor_val_three, Shape.rowMajor_val_two]
    show (i.val * b + j.val) * c + k.val = q.val * c + k.val
    rw [hq])

/-- `[m, c]` with its leading axis split in two (`[a, b, c]`) reads, at `(i, j, k)`, the operand at `(q, k)` with
    `q = i * b + j`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (q : Fin m)
    (hq : q.val = i.val * b + j.val) :
    shapeCast ⟨3, ![a, b, c]⟩ x h (ix3 i j k) = x (ix2 q k) :=
  shapeCast_apply x h _ _ (by
    rw [Shape.rowMajor_val_three, Shape.rowMajor_val_two]
    show q.val * c + k.val = (i.val * b + j.val) * c + k.val
    rw [hq])

/-- The last axis brought to the front (permutation `[2, 0, 1]`): `[a, b, c]` to `[c, a, b]` reads, at `(k, i, j)`, the
    operand at `(i, j, k)`. -/
theorem transpose_ix3_201_apply {a b c : ℕ} (x : (⟨3, ![a, b, c]⟩ : Shape).Idx → α)
    (h : (⟨3, ![a, b, c]⟩ : Shape).Transposes [2, 0, 1] ⟨3, ![c, a, b]⟩) (k : Fin c) (i : Fin a) (j : Fin b) :
    transpose ⟨3, ![c, a, b]⟩ [2, 0, 1] x h (ix3 k i j) = x (ix3 i j k) :=
  transpose_apply _ x h _ _ fun d => match d with | ⟨0, _⟩ => rfl | ⟨1, _⟩ => rfl | ⟨2, _⟩ => rfl

end Cert.Lib.Rank3Layout

end
-- ==== Proof.TpsSpec.lean ====
/-
  The thin-plate-spline warp as one function of its data, index by index, on the extended reals.

  For a batch entry `b` and a pixel `(h, w)` the warped coordinate is the affine part
  `A[b,0] + A[b,1] · gx[h,w] + A[b,2] · gy[h,w]` plus the radial part `Σₙ W[b,n] · U(h, w, n)`, where
  `U = d · log d` and `d` is the squared distance `(gx[h,w] − px[n])² + (gy[h,w] − py[n])²` from the pixel to control
  point `n`, replaced by `1` where it is `0` (so that `U = 0` there). The sums are taken in the order written: the three
  affine terms from the left, then the radial sum.
-/
import Idealize.ShloMosaic.PureOps.Ideal
import Idealize.ShloMosaic.Lib.ValueIdx

noncomputable section

namespace Cert.Tps

open Idealize.ShloMosaic Idealize.ShloMosaic.ValueIdx

/-- The squared distance from the pixel `(gx, gy)` to the control point `(px, py)`. -/
def sqDist (gx gy px py : EReal) : EReal := (gx - px) * (gx - px) + (gy - py) * (gy - py)

/-- A squared distance with `0` replaced by `1`. -/
def offZero (d : EReal) : EReal :=
  Scalar.select (Ideal.cmp .oeq d (Ideal.ofBits .f32 0x00000000#32)) (Ideal.ofBits .f32 0x3F800000#32) d

/-- The radial basis value `d · log d` at the guarded squared distance. -/
def radial (gx gy px py : EReal) : EReal :=
  offZero (sqDist gx gy px py) * Ideal.log (offZero (sqDist gx gy px py))

/-- The warped coordinate for affine coefficients `A` (one row of three per batch entry) and radial weights `W` (one
    row of 25 per batch entry), over the pixel grids `gx`, `gy` and the control points `px`, `py`. -/
def warp (A : (⟨2, ![64, 3]⟩ : Shape).Idx → EReal) (W : (⟨2, ![64, 25]⟩ : Shape).Idx → EReal)
    (gx gy : (⟨2, ![256, 192]⟩ : Shape).Idx → EReal) (px py : (⟨1, ![25]⟩ : Shape).Idx → EReal) :
    (⟨3, ![64, 256, 192]⟩ : Shape).Idx → EReal := fun i =>
  ((A (ix2 (i 0) (0 : Fin 3)) + A (ix2 (i 0) (1 : Fin 3)) * gx (ix2 (i 1) (i 2)))
      + A (ix2 (i 0) (2 : Fin 3)) * gy (ix2 (i 1) (i 2)))
    + ∑ n : Fin 25, W (ix2 (i 0) n) * radial (gx (ix2 (i 1) (i 2))) (gy (ix2 (i 1) (i 2))) (px (ix1 n)) (py (ix1 n))

end Cert.Tps

end
-- ==== Proof.TpsBody.lean ====
/-
  The kernel body's two stored values read at an index, at the ideal instance.

  At a grid point the body holds a block of 32 rows of the pixel grids (`gx`, `gy`: `[32, 192]`), the control points
  as rows (`[1, 25]`), the radial weights (`[64, 25]`) and the affine coefficients (`[64, 3]`). It forms the radial
  values `U[r, w, n]` of the block, flattens the pixels to one axis and multiplies by the transposed weights on the
  matrix unit, so that entry `(r · 192 + w, b)` of the product is `Σₙ U[r, w, n] · W[b, n]`; splits the pixel axis
  again, adds the three affine terms, and brings the batch axis to the front. Read at `(b, r, w)` the stored value is
  therefore the affine part plus that sum.
-/
import proofs.«167685_j41068477284473_2_alg».proof.Proof.Gen.KernelIdeal.Skeleton
import proofs.«167685_j41068477284473_2_alg».proof.Proof.LibUnitAxisLayout
import proofs.«167685_j41068477284473_2_alg».proof.Proof.LibRank3Layout
import proofs.«167685_j41068477284473_2_alg».proof.Proof.TpsSpec
import Idealize.ShloMosaic.Lib.ValueLayout
import Idealize.ShloMosaic.PureOps.Ideal.Laws

noncomputable section

namespace Cert.Tps

open Idealize.ShloMosaic Idealize.ShloMosaic.ValueIdx Idealize.ShloMosaic.UnitAxisLayout Cert.Lib.Rank3Layout
open Cert.KernelIdeal Cert.KernelIdeal.Gen

/-- Rounding to bf16 is the identity on the extended reals. -/
theorem truncf_bf16_apply {s : Shape} (a : FVec Ideal s .f32) (h : FTy.bf16.bits < FTy.f32.bits) (i : s.Idx) :
    truncf (F := Ideal) .bf16 a h i = a i := rfl

/-- The radial values of a block, as the body computes them from the four spread operands, read at an index. -/
theorem radial_pointwise (a b c d : FVec Ideal S32x192x25 .f32) (i : S32x192x25.Idx) :
    (mulf (select (cmpf .oeq (addf (mulf (subf a c) (subf a c)) (mulf (subf b d) (subf b d)))
              (broadcast S32x192x25 (Scalar.ofBits (F := Ideal) .f32 0x00000000#32)))
            (broadcast S32x192x25 (Scalar.ofBits (F := Ideal) .f32 0x3F800000#32))
            (addf (mulf (subf a c) (subf a c)) (mulf (subf b d) (subf b d))))
          (log (select (cmpf .oeq (addf (mulf (subf a c) (subf a c)) (mulf (subf b d) (subf b d)))
              (broadcast S32x192x25 (Scalar.ofBits (F := Ideal) .f32 0x00000000#32)))
            (broadcast S32x192x25 (Scalar.ofBits (F := Ideal) .f32 0x3F800000#32))
            (addf (mulf (subf a c) (subf a c)) (mulf (subf b d) (subf b d)))))) i
      = radial (a i) (b i) (c i) (d i) := rfl

/-- The flattened radial values: row `r · 192 + w`, column `n` of the matrix the body hands to the matrix unit is the
    radial value of pixel `(r, w)` of the block at control point `n`. -/
theorem radial_block (x0 x1 : Vec Ideal S32x192 .f32) (x2 x3 : Vec Ideal S1x25 .f32)
    (r : Fin 32) (w : Fin 192) (n : Fin 25) (q : Fin 6144) (hq : q.val = r.val * 192 + w.val) :
    k0_pay7 x0 x1 x2 x3 (ix2 q n)
      = radial (x0 (ix2 r w)) (x1 (ix2 r w)) (x2 (ix2 (0 : Fin 1) n)) (x3 (ix2 (0 : Fin 1) n)) := by
  unfold k0_pay7
  refine (truncf_bf16_apply _ _ _).trans ?_
  refine (shapeCast_abc_mc_apply _ _ r w n q hq).trans ?_
  refine (radial_pointwise _ _ _ _ _).trans ?_
  exact congr (congr (congr (congrArg radial (spread_lanes_apply x0 _ _ r w n)) (spread_lanes_apply x1 _ _ r w n))
    ((spread_planes_apply _ _ _ r w n).trans (shapeCast_1a_a_apply x2 _ n)))
    ((spread_planes_apply _ _ _ r w n).trans (shapeCast_1a_a_apply x3 _ n))

/-! ## The matrix product -/

/-- The product's index maps, coordinate by coordinate: output entry `(q, b)` and contraction index `n` read the left
    factor at `(q, n)` and the right factor at `(n, b)`. -/
theorem mm_lhs0 (j : S6144x64.Idx) (q : (dot_S6144x25_S25x64_S6144x64_1_0_0_1_n_n).contr.Idx) : ((dot_S6144x25_S25x64_S6144x64_1_0_0_1_n_n).lhsIdx j q 0).val = (j 0).val := by
  unfold DotDims.lhsIdx
  rw [dif_neg (show ¬(0 : Fin S6144x25.rank) ∈ (dot_S6144x25_S25x64_S6144x64_1_0_0_1_n_n).lhsBatch by decide),
    dif_pos (show (0 : Fin S6144x25.rank) ∈ (dot_S6144x25_S25x64_S6144x64_1_0_0_1_n_n).lhsNonContracting by decide)]
  rfl
theorem mm_lhs1 (j : S6144x64.Idx) (q : (dot_S6144x25_S25x64_S6144x64_1_0_0_1_n_n).contr.Idx) : ((dot_S6144x25_S25x64_S6144x64_1_0_0_1_n_n).lhsIdx j q 1).val = (q ⟨0, by decide⟩).val :=
  (dot_S6144x25_S25x64_S6144x64_1_0_0_1_n_n).lhsIdx_val_of_single rfl j q
theorem mm_rhs0 (j : S6144x64.Idx) (q : (dot_S6144x25_S25x64_S6144x64_1_0_0_1_n_n).contr.Idx) : ((dot_S6144x25_S25x64_S6144x64_1_0_0_1_n_n).rhsIdx j q 0).val = (q ⟨0, by decide⟩).val :=
  (dot_S6144x25_S25x64_S6144x64_1_0_0_1_n_n).rhsIdx_val_of_single rfl j q
theorem mm_rhs1 (j : S6144x64.Idx) (q : (dot_S6144x25_S25x64_S6144x64_1_0_0_1_n_n).contr.Idx) : ((dot_S6144x25_S25x64_S6144x64_1_0_0_1_n_n).rhsIdx j q 1).val = (j 1).val := by
  unfold DotDims.rhsIdx
  rw [dif_neg (show ¬(1 : Fin S25x64.rank) ∈ (dot_S6144x25_S25x64_S6144x64_1_0_0_1_n_n).rhsBatch by decide),
    dif_pos (show (1 : Fin S25x64.rank) ∈ (dot_S6144x25_S25x64_S6144x64_1_0_0_1_n_n).rhsNonContracting by decide)]
  rfl

/-- The product of the flattened radial values with the transposed weights, into a zero accumulator, with the pixel
    axis split again: entry `(r, w, b)` is the sum over the control points of row `r · 192 + w` of the left factor
    times row `b` of the weights. -/
theorem product_entry (L : FVec Ideal S6144x25 .bf16) (Wt : FVec Ideal S64x25 .bf16)
    (r : Fin 32) (w : Fin 192) (b : Fin 64) (q : Fin 6144) (hq : q.val = r.val * 192 + w.val) :
    shapeCast S32x192x64 (matmul dot_S6144x25_S25x64_S6144x64_1_0_0_1_n_n none L
        (transpose S25x64 [1, 0] Wt transposes_S64x25_p1_0_S25x64) (constant S6144x64 .f32 0x00000000#32))
      shapeCasts_S6144x64_S32x192x64 (ix3 r w b)
      = ∑ n : Fin 25, L (ix2 q n) * Wt (ix2 b n) := by
  refine (shapeCast_mc_abc_apply _ _ r w b q hq).trans ?_
  refine (Ideal.matmul_constant_zero_apply dot_S6144x25_S25x64_S6144x64_1_0_0_1_n_n none L _ (ix2 q b)).trans ?_
  rw [← Equiv.sum_comp (contrEquiv1 dot_S6144x25_S25x64_S6144x64_1_0_0_1_n_n 25 rfl rfl).symm]
  refine Finset.sum_congr rfl fun n _ => ?_
  have hn := contrEquiv1_symm_val dot_S6144x25_S25x64_S6144x64_1_0_0_1_n_n 25 rfl rfl n
  have el : (dot_S6144x25_S25x64_S6144x64_1_0_0_1_n_n).lhsIdx (ix2 q b)
      ((contrEquiv1 dot_S6144x25_S25x64_S6144x64_1_0_0_1_n_n 25 rfl rfl).symm n) = ix2 q n := funext fun a => Fin.ext (by
    match a with
    | ⟨0, _⟩ => exact mm_lhs0 _ _
    | ⟨1, _⟩ => exact (mm_lhs1 _ _).trans hn)
  have er : (dot_S6144x25_S25x64_S6144x64_1_0_0_1_n_n).rhsIdx (ix2 q b)
      ((contrEquiv1 dot_S6144x25_S25x64_S6144x64_1_0_0_1_n_n 25 rfl rfl).symm n) = ix2 n b := funext fun a => Fin.ext (by
    match a with
    | ⟨0, _⟩ => exact (mm_rhs0 _ _).trans hn
    | ⟨1, _⟩ => exact mm_rhs1 _ _)
  rw [el, er]
  exact congrArg (L (ix2 q n) * ·) (transpose_ix2_apply Wt _ n b)

/-! ## The affine part -/

/-- Column `o` of the coefficients, cut out, flattened, and spread over the block: at `(r, w, b)` it is the
    coefficient `(b, o)`. -/
theorem coeff_spread (v : FVec Ideal S64x3 .f32) (o : Nat) (ho : o < 3) (hs : S64x3.Slices ![0, o] S64x1)
    (r : Fin 32) (w : Fin 192) (b : Fin 64) :
    broadcastTo S32x192x64 (shapeCast S1x1x64 (shapeCast S64 (extractStridedSlice S64x1 ![0, o] v hs)
        shapeCasts_S64x1_S64) shapeCasts_S64_S1x1x64) broadcasts_S1x1x64_S32x192x64 (ix3 r w b)
      = v (ix2 b (⟨o, ho⟩ : Fin 3)) :=
  (spread_planes_apply _ _ _ r w b).trans ((shapeCast_a1_a_apply _ _ b).trans
    (slice2_axis1_apply o v hs b (0 : Fin 1) ⟨o, ho⟩ rfl))

/-- The three affine terms, added from the left, and a fourth term `P`: the value before the batch axis is brought
    to the front, read at `(r, w, b)`. -/
theorem affine_entry (v : FVec Ideal S64x3 .f32) (g1 g2 : FVec Ideal S32x192x1 .f32) (P : FVec Ideal S32x192x64 .f32)
    (r : Fin 32) (w : Fin 192) (b : Fin 64) :
    addf (addf (addf
        (broadcastTo S32x192x64 (shapeCast S1x1x64 (shapeCast S64 (extractStridedSlice S64x1 ![0, 0] v slices_S64x3_o0_0_S64x1)
          shapeCasts_S64x1_S64) shapeCasts_S64_S1x1x64) broadcasts_S1x1x64_S32x192x64)
        (mulf (broadcastTo S32x192x64 (shapeCast S1x1x64 (shapeCast S64 (extractStridedSlice S64x1 ![0, 1] v slices_S64x3_o0_1_S64x1)
          shapeCasts_S64x1_S64) shapeCasts_S64_S1x1x64) broadcasts_S1x1x64_S32x192x64)
          (broadcastTo S32x192x64 g1 broadcasts_S32x192x1_S32x192x64)))
        (mulf (broadcastTo S32x192x64 (shapeCast S1x1x64 (shapeCast S64 (extractStridedSlice S64x1 ![0, 2] v slices_S64x3_o0_2_S64x1)
          shapeCasts_S64x1_S64) shapeCasts_S64_S1x1x64) broadcasts_S1x1x64_S32x192x64)
          (broadcastTo S32x192x64 g2 broadcasts_S32x192x1_S32x192x64))) P (ix3 r w b)
      = ((v (ix2 b (0 : Fin 3)) + v (ix2 b (1 : Fin 3)) * g1 (ix3 r w (0 : Fin 1)))
          + v (ix2 b (2 : Fin 3)) * g2 (ix3 r w (0 : Fin 1))) + P (ix3 r w b) := by
  have e0 := coeff_spread v 0 (by decide) slices_S64x3_o0_0_S64x1 r w b
  have e1 := coeff_spread v 1 (by decide) slices_S64x3_o0_1_S64x1 r w b
  have e2 := coeff_spread v 2 (by decide) slices_S64x3_o0_2_S64x1 r w b
  have f1 := broadcastTo_ab1_abc_apply g1 broadcasts_S32x192x1_S32x192x64 r w b
  have f2 := broadcastTo_ab1_abc_apply g2 broadcasts_S32x192x1_S32x192x64 r w b
  simp only [addf_apply, mulf_apply]
  rw [e0, e1, e2, f1, f2]
  rfl

/-! ## The two stored values -/

/-- The first stored value at `(b, r, w)`: the affine part of the x-coefficients plus the radial sum against the
    x-weights. -/
theorem stored_x (x0 x1 : Vec Ideal S32x192 .f32) (x2 x3 : Vec Ideal S1x25 .f32) (x4 : Vec Ideal S64x25 .f32)
    (x6 : Vec Ideal S64x3 .f32) (b : Fin 64) (r : Fin 32) (w : Fin 192) :
    k0_pay1 (k0_pay3 x6) (k0_pay5 x0) (k0_pay6 x1) (k0_pay9 x0 x1 x2 x3 x4) (ix3 b r w)
      = ((x6 (ix2 b (0 : Fin 3)) + x6 (ix2 b (1 : Fin 3)) * x0 (ix2 r w)) + x6 (ix2 b (2 : Fin 3)) * x1 (ix2 r w))
        + ∑ n : Fin 25, radial (x0 (ix2 r w)) (x1 (ix2 r w)) (x2 (ix2 (0 : Fin 1) n)) (x3 (ix2 (0 : Fin 1) n)) * x4 (ix2 b n) := by
  have hq : (⟨r.val * 192 + w.val, by have := r.isLt; have := w.isLt; omega⟩ : Fin 6144).val = r.val * 192 + w.val := rfl
  unfold k0_pay1
  refine (transpose_ix3_201_apply _ _ b r w).trans ?_
  refine (affine_entry _ _ _ _ r w b).trans ?_
  have c3 : k0_pay3 x6 = x6 := shapeCast_self x6 _
  have g1 : k0_pay5 x0 (ix3 r w (0 : Fin 1)) = x0 (ix2 r w) := shapeCast_ab_ab1_apply x0 _ r w 0
  have g2 : k0_pay6 x1 (ix3 r w (0 : Fin 1)) = x1 (ix2 r w) := shapeCast_ab_ab1_apply x1 _ r w 0
  have pr : k0_pay9 x0 x1 x2 x3 x4 (ix3 r w b)
      = ∑ n : Fin 25, radial (x0 (ix2 r w)) (x1 (ix2 r w)) (x2 (ix2 (0 : Fin 1) n)) (x3 (ix2 (0 : Fin 1) n)) * x4 (ix2 b n) := by
    unfold k0_pay9
    refine (product_entry _ _ r w b _ hq).trans ?_
    refine Finset.sum_congr rfl fun n _ => ?_
    exact congr (congrArg (· * ·) (radial_block x0 x1 x2 x3 r w n _ hq))
      ((truncf_bf16_apply _ _ _).trans (congrFun (shapeCast_self x4 _) _))
  rw [c3, g1, g2, pr]

/-- The second stored value at `(b, r, w)`: the same with the y-coefficients and the y-weights. -/
theorem stored_y (x0 x1 : Vec Ideal S32x192 .f32) (x2 x3 : Vec Ideal S1x25 .f32) (x5 : Vec Ideal S64x25 .f32)
    (x7 : Vec Ideal S64x3 .f32) (b : Fin 64) (r : Fin 32) (w : Fin 192) :
    k0_pay2 (k0_pay4 x7) (k0_pay5 x0) (k0_pay6 x1) (k0_pay7 x0 x1 x2 x3) (k0_pay8 x5) (ix3 b r w)
      = ((x7 (ix2 b (0 : Fin 3)) + x7 (ix2 b (1 : Fin 3)) * x0 (ix2 r w)) + x7 (ix2 b (2 : Fin 3)) * x1 (ix2 r w))
        + ∑ n : Fin 25, radial (x0 (ix2 r w)) (x1 (ix2 r w)) (x2 (ix2 (0 : Fin 1) n)) (x3 (ix2 (0 : Fin 1) n)) * x5 (ix2 b n) := by
  have hq : (⟨r.val * 192 + w.val, by have := r.isLt; have := w.isLt; omega⟩ : Fin 6144).val = r.val * 192 + w.val := rfl
  unfold k0_pay2
  refine (transpose_ix3_201_apply _ _ b r w).trans ?_
  refine (affine_entry _ _ _ _ r w b).trans ?_
  have c4 : k0_pay4 x7 = x7 := shapeCast_self x7 _
  have g1 : k0_pay5 x0 (ix3 r w (0 : Fin 1)) = x0 (ix2 r w) := shapeCast_ab_ab1_apply x0 _ r w 0
  have g2 : k0_pay6 x1 (ix3 r w (0 : Fin 1)) = x1 (ix2 r w) := shapeCast_ab_ab1_apply x1 _ r w 0
  rw [c4, g1, g2, product_entry _ _ r w b _ hq]
  refine congrArg (_ + ·) (Finset.sum_congr rfl fun n _ => ?_)
  unfold k0_pay8
  exact congr (congrArg (· * ·) (radial_block x0 x1 x2 x3 r w n _ hq))
    ((truncf_bf16_apply _ _ _).trans (congrFun (shapeCast_self x5 _) _))

end Cert.Tps

end
-- ==== Proof.TpsBlocks.lean ====
/-
  From what each grid point writes back to the two arrays the region leaves.

  The grid has 8 points; point `t` works on rows `32 t … 32 t + 31` of the pixel grids and writes rows
  `32 t … 32 t + 31` (all batch entries, all columns) of each output array; the control points, the weights and the
  affine coefficients are staged whole at every point. What a point writes back is therefore the block, at those rows, of
  ONE function of the arrays the region finds: the warp of the coefficients, pixel grids and control points. The 8
  row blocks cover the output arrays, so after the region each output array is that function.
-/
import proofs.«167685_j41068477284473_2_alg».proof.Proof.Gen.KernelIdeal.Frame
import proofs.«167685_j41068477284473_2_alg».proof.Proof.TpsBody
import Idealize.ShloMosaic.Lib.Pipeline.Value

noncomputable section

namespace Cert.Tps

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The zero offsets of a whole-block access, rank 2 and rank 3. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The x-plane as a function of the arrays the region finds. -/
def planeX (c : Dev nD) : S64x256x192.Idx → EReal :=
  warp (V m c main_v13) (V m c main_v9) (V m c main_arg1) (V m c main_arg2)
    (fun k => V m c main_v16 (ix2 (0 : Fin 1) (k 0))) (fun k => V m c main_v17 (ix2 (0 : Fin 1) (k 0)))

/-- The y-plane as a function of the arrays the region finds. -/
def planeY (c : Dev nD) : S64x256x192.Idx → EReal :=
  warp (V m c main_v15) (V m c main_v11) (V m c main_arg1) (V m c main_arg2)
    (fun k => V m c main_v16 (ix2 (0 : Fin 1) (k 0))) (fun k => V m c main_v17 (ix2 (0 : Fin 1) (k 0)))

/-- The printed index maps over the grid: the pixel grids and the outputs move down one row block per point, every
    other window stays at block zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = 0 ∧ win0_8.index t (1 : Fin 3) = t.val ∧ win0_8.index t (2 : Fin 3) = 0
    ∧ win0_9.index t (0 : Fin 3) = 0 ∧ win0_9.index t (1 : Fin 3) = t.val ∧ win0_9.index t (2 : Fin 3) = 0 :=
  (by decide +kernel : ∀ t : Fin grid0.N, _)

/-! ## The input blocks read at an index -/

/-- Point `t`'s block of `gx` is rows `32 t …` of the array. -/
theorem block_gx (c : Dev nD) (t : Fin cfg0.N) (x : S32x192.Idx) (k : S256x192.Idx)
    (hk0 : (k 0).val = t.val * 32 + (x 0).val) (hk1 : (k 1).val = (x 1).val) :
    (iblk m c 0 t : Vec Ideal S32x192 .f32) x = (V m c main_arg1 : S256x192.Idx → EReal) k := by
  obtain ⟨e0, e1, -⟩ := index_facts t
  unfold iblk
  rw [View.read_apply]
  show V m c main_arg1 _ = V m c main_arg1 _
  refine congrArg (V m c main_arg1) ?_
  funext a
  apply Fin.ext
  match a with
  | ⟨0, _⟩ => show win0_0.index t 0 * 32 + 1 * (x 0).val = (k 0).val; rw [e0, hk0]; omega
  | ⟨1, _⟩ => show win0_0.index t 1 * 192 + 1 * (x 1).val = (k 1).val; rw [e1, hk1]; omega

/-- Point `t`'s block of `gy` is rows `32 t …` of the array. -/
theorem block_gy (c : Dev nD) (t : Fin cfg0.N) (x : S32x192.Idx) (k : S256x192.Idx)
    (hk0 : (k 0).val = t.val * 32 + (x 0).val) (hk1 : (k 1).val = (x 1).val) :
    (iblk m c 1 t : Vec Ideal S32x192 .f32) x = (V m c main_arg2 : S256x192.Idx → EReal) k := by
  obtain ⟨-, -, e0, e1, -⟩ := index_facts t
  unfold iblk
  rw [View.read_apply]
  show V m c main_arg2 _ = V m c main_arg2 _
  refine congrArg (V m c main_arg2) ?_
  funext a
  apply Fin.ext
  match a with
  | ⟨0, _⟩ => show win0_1.index t 0 * 32 + 1 * (x 0).val = (k 0).val; rw [e0, hk0]; omega
  | ⟨1, _⟩ => show win0_1.index t 1 * 192 + 1 * (x 1).val = (k 1).val; rw [e1, hk1]; omega

/-- Every point's block of the x control points is the whole row. -/
theorem block_px (c : Dev nD) (t : Fin cfg0.N) (x : S1x25.Idx) :
    (iblk m c 2 t : Vec Ideal S1x25 .f32) x = (V m c main_v16 : S1x25.Idx → EReal) x := by
  obtain ⟨-, -, -, -, e0, e1, -⟩ := index_facts t
  unfold iblk
  rw [View.read_apply]
  show V m c main_v16 _ = V m c main_v16 _
  refine congrArg (V m c main_v16) ?_
  funext a
  apply Fin.ext
  match a with
  | ⟨0, _⟩ => show win0_2.index t 0 * 1 + 1 * (x 0).val = (x 0).val; rw [e0]; omega
  | ⟨1, _⟩ => show win0_2.index t 1 * 25 + 1 * (x 1).val = (x 1).val; rw [e1]; omega

/-- Every point's block of the y control points is the whole row. -/
theorem block_py (c : Dev nD) (t : Fin cfg0.N) (x : S1x25.Idx) :
    (iblk m c 3 t : Vec Ideal S1x25 .f32) x = (V m c main_v17 : S1x25.Idx → EReal) x := by
  obtain ⟨-, -, -, -, -, -, e0, e1, -⟩ := index_facts t
  unfold iblk
  rw [View.read_apply]
  show V m c main_v17 _ = V m c main_v17 _
  refine congrArg (V m c main_v17) ?_
  funext a
  apply Fin.ext
  match a with
  | ⟨0, _⟩ => show win0_3.index t 0 * 1 + 1 * (x 0).val = (x 0).val; rw [e0]; omega
  | ⟨1, _⟩ => show win0_3.index t 1 * 25 + 1 * (x 1).val = (x 1).val; rw [e1]; omega

/-- Every point's block of the x-weights is the whole array. -/
theorem block_wx (c : Dev nD) (t : Fin cfg0.N) (x : S64x25.Idx) :
    (iblk m c 4 t : Vec Ideal S64x25 .f32) x = (V m c main_v9 : S64x25.Idx → EReal) x := by
  obtain ⟨-, -, -, -, -, -, -, -, e0, e1, -⟩ := index_facts t
  unfold iblk
  rw [View.read_apply]
  show V m c main_v9 _ = V m c main_v9 _
  refine congrArg (V m c main_v9) ?_
  funext a
  apply Fin.ext
  match a with
  | ⟨0, _⟩ => show win0_4.index t 0 * 64 + 1 * (x 0).val = (x 0).val; rw [e0]; omega
  | ⟨1, _⟩ => show win0_4.index t 1 * 25 + 1 * (x 1).val = (x 1).val; rw [e1]; omega

/-- Every point's block of the y-weights is the whole array. -/
theorem block_wy (c : Dev nD) (t : Fin cfg0.N) (x : S64x25.Idx) :
    (iblk m c 5 t : Vec Ideal S64x25 .f32) x = (V m c main_v11 : S64x25.Idx → EReal) x := by
  obtain ⟨-, -, -, -, -, -, -, -, -, -, e0, e1, -⟩ := index_facts t
  unfold iblk
  rw [View.read_apply]
  show V m c main_v11 _ = V m c main_v11 _
  refine congrArg (V m c main_v11) ?_
  funext a
  apply Fin.ext
  match a with
  | ⟨0, _⟩ => show win0_5.index t 0 * 64 + 1 * (x 0).val = (x 0).val; rw [e0]; omega
  | ⟨1, _⟩ => show win0_5.index t 1 * 25 + 1 * (x 1).val = (x 1).val; rw [e1]; omega

/-- Every point's block of the affine x-coefficients is the whole array. -/
theorem block_ax (c : Dev nD) (t : Fin cfg0.N) (x : S64x3.Idx) :
    (iblk m c 6 t : Vec Ideal S64x3 .f32) x = (V m c main_v13 : S64x3.Idx → EReal) x := by
  obtain ⟨-, -, -, -, -, -, -, -, -, -, -, -, e0, e1, -⟩ := index_facts t
  unfold iblk
  rw [View.read_apply]
  show V m c main_v13 _ = V m c main_v13 _
  refine congrArg (V m c main_v13) ?_
  funext a
  apply Fin.ext
  match a with
  | ⟨0, _⟩ => show win0_6.index t 0 * 64 + 1 * (x 0).val = (x 0).val; rw [e0]; omega
  | ⟨1, _⟩ => show win0_6.index t 1 * 3 + 1 * (x 1).val = (x 1).val; rw [e1]; omega

/-- Every point's block of the affine y-coefficients is the whole array. -/
theorem block_ay (c : Dev nD) (t : Fin cfg0.N) (x : S64x3.Idx) :
    (iblk m c 7 t : Vec Ideal S64x3 .f32) x = (V m c main_v15 : S64x3.Idx → EReal) x := by
  obtain ⟨-, -, -, -, -, -, -, -, -, -, -, -, -, -, e0, e1, -⟩ := index_facts t
  unfold iblk
  rw [View.read_apply]
  show V m c main_v15 _ = V m c main_v15 _
  refine congrArg (V m c main_v15) ?_
  funext a
  apply Fin.ext
  match a with
  | ⟨0, _⟩ => show win0_7.index t 0 * 64 + 1 * (x 0).val = (x 0).val; rw [e0]; omega
  | ⟨1, _⟩ => show win0_7.index t 1 * 3 + 1 * (x 1).val = (x 1).val; rw [e1]; omega

/-! ## What a point writes back -/

/-- The warp at an array index whose coordinates are `(b, 32 t + r, w)`, from the blocks point `t` holds. -/
theorem warp_of_blocks (c : Dev nD) (t : Fin cfg0.N) (A : S64x3.Idx → EReal) (W : S64x25.Idx → EReal)
    (a6 : Vec Ideal S64x3 .f32) (a4 : Vec Ideal S64x25 .f32)
    (hA : ∀ x, a6 x = A x) (hW : ∀ x, a4 x = W x)
    (b : Fin 64) (r : Fin 32) (w : Fin 192) (K : S64x256x192.Idx)
    (hK0 : (K 0).val = b.val) (hK1 : (K 1).val = t.val * 32 + r.val) (hK2 : (K 2).val = w.val) :
    ((a6 (ix2 b (0 : Fin 3)) + a6 (ix2 b (1 : Fin 3)) * (iblk m c 0 t : Vec Ideal S32x192 .f32) (ix2 r w))
        + a6 (ix2 b (2 : Fin 3)) * (iblk m c 1 t : Vec Ideal S32x192 .f32) (ix2 r w))
      + ∑ n : Fin 25, radial ((iblk m c 0 t : Vec Ideal S32x192 .f32) (ix2 r w)) ((iblk m c 1 t : Vec Ideal S32x192 .f32) (ix2 r w))
          ((iblk m c 2 t : Vec Ideal S1x25 .f32) (ix2 (0 : Fin 1) n)) ((iblk m c 3 t : Vec Ideal S1x25 .f32) (ix2 (0 : Fin 1) n))
          * a4 (ix2 b n)
      = warp A W (V m c main_arg1) (V m c main_arg2)
          (fun k => V m c main_v16 (ix2 (0 : Fin 1) (k 0))) (fun k => V m c main_v17 (ix2 (0 : Fin 1) (k 0))) K := by
  have hb : K 0 = b := Fin.ext hK0
  have hgx := block_gx m c t (ix2 r w) (ix2 (K 1) (K 2)) hK1 hK2
  have hgy := block_gy m c t (ix2 r w) (ix2 (K 1) (K 2)) hK1 hK2
  rw [hgx, hgy, hA, hA, hA]
  unfold warp
  rw [hb]
  refine congrArg (_ + ·) (Finset.sum_congr rfl fun n _ => ?_)
  rw [block_px m c t (ix2 (0 : Fin 1) n), block_py m c t (ix2 (0 : Fin 1) n), hW]
  exact mul_comm _ _

/-- The array index under block index `(b, r, w)` of point `t`'s output block: `(b, 32 t + r, w)`. -/
theorem emb8 (t : Fin cfg0.N) (b : Fin 64) (r : Fin 32) (w : Fin 192) :
    ((((cfg0.win 8).blk t).view.emb (ix3 b r w) : S64x256x192.Idx) 0).val = b.val
    ∧ ((((cfg0.win 8).blk t).view.emb (ix3 b r w) : S64x256x192.Idx) 1).val = t.val * 32 + r.val
    ∧ ((((cfg0.win 8).blk t).view.emb (ix3 b r w) : S64x256x192.Idx) 2).val = w.val := by
  obtain ⟨-, -, -, -, -, -, -, -, -, -, -, -, -, -, -, -, e0, e1, e2, -⟩ := index_facts t
  refine ⟨?_, ?_, ?_⟩
  · show win0_8.index t 0 * 64 + 1 * b.val = b.val; rw [e0]; omega
  · show win0_8.index t 1 * 32 + 1 * r.val = t.val * 32 + r.val; rw [e1]; omega
  · show win0_8.index t 2 * 192 + 1 * w.val = w.val; rw [e2]; omega

/-- The same for the second output. -/
theorem emb9 (t : Fin cfg0.N) (b : Fin 64) (r : Fin 32) (w : Fin 192) :
    ((((cfg0.win 9).blk t).view.emb (ix3 b r w) : S64x256x192.Idx) 0).val = b.val
    ∧ ((((cfg0.win 9).blk t).view.emb (ix3 b r w) : S64x256x192.Idx) 1).val = t.val * 32 + r.val
    ∧ ((((cfg0.win 9).blk t).view.emb (ix3 b r w) : S64x256x192.Idx) 2).val = w.val := by
  obtain ⟨-, -, -, -, -, -, -, -, -, -, -, -, -, -, -, -, -, -, -, e0, e1, e2⟩ := index_facts t
  refine ⟨?_, ?_, ?_⟩
  · show win0_9.index t 0 * 64 + 1 * b.val = b.val; rw [e0]; omega
  · show win0_9.index t 1 * 32 + 1 * r.val = t.val * 32 + r.val; rw [e1]; omega
  · show win0_9.index t 2 * 192 + 1 * w.val = w.val; rw [e2]; omega

/-- Point `t` writes back, to the first output, its block of the x-plane. -/
theorem flushed_x (c : Dev nD) (t : Fin cfg0.N) :
    (dats m 0 c).flushed 8 t = ((cfg0.win 8).blk t).view.read (Elt Ideal) (planeX m c) := by
  show (cfg0.win 8).cut (grid0.coords t) ((dats m 0 c).after 8 t) = _
  rw [after0_8]
  unfold out0_8
  rw [View.canon_unit_zero zero3]
  simp only [View.ld_unit_zero (S := S32x192) zero2, View.ld_unit_zero (S := S1x25) zero2,
    View.ld_unit_zero (S := S64x25) zero2, View.ld_unit_zero (S := S64x3) zero2]
  funext j
  obtain ⟨b, r, w, rfl⟩ : ∃ (b : Fin 64) (r : Fin 32) (w : Fin 192), j = ix3 b r w := ⟨j 0, j 1, j 2, eq_ix3 j⟩
  refine (stored_x _ _ _ _ _ _ b r w).trans ?_
  rw [View.read_apply]
  obtain ⟨k0, k1, k2⟩ := emb8 t b r w
  exact warp_of_blocks m c t _ _ _ _ (block_ax m c t) (block_wx m c t) b r w _ k0 k1 k2

/-- Point `t` writes back, to the second output, its block of the y-plane. -/
theorem flushed_y (c : Dev nD) (t : Fin cfg0.N) :
    (dats m 0 c).flushed 9 t = ((cfg0.win 9).blk t).view.read (Elt Ideal) (planeY m c) := by
  show (cfg0.win 9).cut (grid0.coords t) ((dats m 0 c).after 9 t) = _
  rw [after0_9]
  unfold out0_9
  rw [View.canon_unit_zero zero3]
  simp only [View.ld_unit_zero (S := S32x192) zero2, View.ld_unit_zero (S := S1x25) zero2,
    View.ld_unit_zero (S := S64x25) zero2, View.ld_unit_zero (S := S64x3) zero2]
  funext j
  obtain ⟨b, r, w, rfl⟩ : ∃ (b : Fin 64) (r : Fin 32) (w : Fin 192), j = ix3 b r w := ⟨j 0, j 1, j 2, eq_ix3 j⟩
  refine (stored_y _ _ _ _ _ _ b r w).trans ?_
  rw [View.read_apply]
  obtain ⟨k0, k1, k2⟩ := emb9 t b r w
  exact warp_of_blocks m c t _ _ _ _ (block_ay m c t) (block_wy m c t) b r w _ k0 k1 k2

/-! ## The row blocks cover the outputs -/

/-- An array index lies in point `t`'s output block iff each coordinate lies in the block's range on its axis. -/
theorem mem_block_x (t : Fin cfg0.N) (i : S64x256x192.Idx) :
    i ∈ ((cfg0.win 8).blk t).view.set ↔ ∀ a : Fin 3, win0_8.index t a * S64x32x192.size a ≤ (i a).val
      ∧ (i a).val < win0_8.index t a * S64x32x192.size a + S64x32x192.size a := by
  show i ∈ ((View.whole main_v18_0).slice (win0_8.rect t)).set ↔ _
  rw [View.set_slice_whole, Rect.mem_set_unit]
  exact Iff.rfl

/-- The same for the second output. -/
theorem mem_block_y (t : Fin cfg0.N) (i : S64x256x192.Idx) :
    i ∈ ((cfg0.win 9).blk t).view.set ↔ ∀ a : Fin 3, win0_9.index t a * S64x32x192.size a ≤ (i a).val
      ∧ (i a).val < win0_9.index t a * S64x32x192.size a + S64x32x192.size a := by
  show i ∈ ((View.whole main_v18_1).slice (win0_9.rect t)).set ↔ _
  rw [View.set_slice_whole, Rect.mem_set_unit]
  exact Iff.rfl

/-- The point that covers row `h` is `h / 32`. -/
def pointOf (i : S64x256x192.Idx) : Fin cfg0.N :=
  ⟨(i 1).val / 32, by have h : (i 1).val < 256 := (i 1).isLt; show _ < grid0.N; rw [N_0]; omega⟩

/-- Every index of the first output lies in the block of the point that holds its row. -/
theorem cover_x (i : S64x256x192.Idx) : ∃ t : Fin cfg0.N, (cfg0.win 8).flush t = true ∧ i ∈ ((cfg0.win 8).blk t).view.set := by
  refine ⟨pointOf i, flush0_8 _, ?_⟩
  rw [mem_block_x]
  obtain ⟨-, -, -, -, -, -, -, -, -, -, -, -, -, -, -, -, e0, e1, e2, -⟩ := index_facts (pointOf i)
  have h0 : (i 0).val < 64 := (i 0).isLt
  have h1 : (i 1).val < 256 := (i 1).isLt
  have h2 : (i 2).val < 192 := (i 2).isLt
  have hp : (pointOf i).val = (i 1).val / 32 := rfl
  intro a
  match a with
  | ⟨0, _⟩ => show win0_8.index (pointOf i) 0 * 64 ≤ (i 0).val ∧ (i 0).val < win0_8.index (pointOf i) 0 * 64 + 64; rw [e0]; omega
  | ⟨1, _⟩ => show win0_8.index (pointOf i) 1 * 32 ≤ (i 1).val ∧ (i 1).val < win0_8.index (pointOf i) 1 * 32 + 32; rw [e1, hp]; omega
  | ⟨2, _⟩ => show win0_8.index (pointOf i) 2 * 192 ≤ (i 2).val ∧ (i 2).val < win0_8.index (pointOf i) 2 * 192 + 192; rw [e2]; omega

/-- Every index of the second output lies in the block of the point that holds its row. -/
theorem cover_y (i : S64x256x192.Idx) : ∃ t : Fin cfg0.N, (cfg0.win 9).flush t = true ∧ i ∈ ((cfg0.win 9).blk t).view.set := by
  refine ⟨pointOf i, flush0_9 _, ?_⟩
  rw [mem_block_y]
  obtain ⟨-, -, -, -, -, -, -, -, -, -, -, -, -, -, -, -, -, -, -, e0, e1, e2⟩ := index_facts (pointOf i)
  have h0 : (i 0).val < 64 := (i 0).isLt
  have h1 : (i 1).val < 256 := (i 1).isLt
  have h2 : (i 2).val < 192 := (i 2).isLt
  have hp : (pointOf i).val = (i 1).val / 32 := rfl
  intro a
  match a with
  | ⟨0, _⟩ => show win0_9.index (pointOf i) 0 * 64 ≤ (i 0).val ∧ (i 0).val < win0_9.index (pointOf i) 0 * 64 + 64; rw [e0]; omega
  | ⟨1, _⟩ => show win0_9.index (pointOf i) 1 * 32 ≤ (i 1).val ∧ (i 1).val < win0_9.index (pointOf i) 1 * 32 + 32; rw [e1, hp]; omega
  | ⟨2, _⟩ => show win0_9.index (pointOf i) 2 * 192 ≤ (i 2).val ∧ (i 2).val < win0_9.index (pointOf i) 2 * 192 + 192; rw [e2]; omega

/-- After the region the first output array is the x-plane. -/
theorem final_x (c : Dev nD) : (dats m 0 c).arrAt 8 cfg0.N = planeX m c :=
  (dats m 0 c).arrAt_eq_of_cover 8 (planeX m c) (fun t _ => flushed_x m c t) cover_x

/-- After the region the second output array is the y-plane. -/
theorem final_y (c : Dev nD) : (dats m 0 c).arrAt 9 cfg0.N = planeY m c :=
  (dats m 0 c).arrAt_eq_of_cover 9 (planeY m c) (fun t _ => flushed_y m c t) cover_y

end Cert.Tps

end
-- ==== Proof.TpsHost.lean ====
/-
  The host side of the kernel's program, read as values.

  Before the region the program computes, with ordinary array operations, the radial weights and the affine
  coefficients of both coordinates — the very operations the reference starts with — and reshapes the two vectors of
  control points to rows. After the region it gives each of the two result planes a trailing unit axis and joins them
  along it. The first are therefore the reference's own stages of the launch arrays, the rows read back the vectors,
  and the final result is the two planes stacked.
-/
import proofs.«167685_j41068477284473_2_alg».proof.Proof.Gen.KernelIdeal.Frame
import proofs.«167685_j41068477284473_2_alg».proof.Proof.Gen.ReferenceIdeal.Read
import Idealize.ShloMosaic.Lib.StableHlo.Run
import Idealize.ShloMosaic.Lib.ValueLayout

noncomputable section

namespace Cert.Tps

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ)

/-- Two planes `[64, 256, 192]` stacked along a new last axis. -/
def stack (X Y : S64x256x192.Idx → EReal) : S64x256x192x2.Idx → EReal :=
  concatenate S64x256x192x2 3
    [⟨S64x256x192x1, broadcastInDim (α := EReal) S64x256x192x1 ![0, 1, 2] bcast_S64x256x192_S64x256x192x1_0_1_2 X⟩,
     ⟨S64x256x192x1, broadcastInDim (α := EReal) S64x256x192x1 ![0, 1, 2] bcast_S64x256x192_S64x256x192x1_0_1_2 Y⟩]
    concatenates_S64x256x192x1_S64x256x192x1_S64x256x192x2_d3

/-- The x-weights the region finds are the reference's stage of the launch arrays. -/
theorem entry_wx (c : Dev nD) : (V m c main_v9 : S64x25.Idx → EReal)
    = Cert.ReferenceIdeal.Read.val_main_v9 (F := Ideal) (m ((c : Thread nD τ).loc main_arg0)) (m ((c : Thread nD τ).loc main_arg3))
        (m ((c : Thread nD τ).loc main_arg5)) := by
  show StableHlo.after hostOps0 (fun b => m (c, b)) (Proc.devRef .tc main_v9) = _
  after_results
  rfl

/-- The y-weights the region finds are the reference's stage of the launch arrays. -/
theorem entry_wy (c : Dev nD) : (V m c main_v11 : S64x25.Idx → EReal)
    = Cert.ReferenceIdeal.Read.val_main_v11 (F := Ideal) (m ((c : Thread nD τ).loc main_arg0)) (m ((c : Thread nD τ).loc main_arg4))
        (m ((c : Thread nD τ).loc main_arg5)) := by
  show StableHlo.after hostOps0 (fun b => m (c, b)) (Proc.devRef .tc main_v11) = _
  after_results
  rfl

/-- The affine x-coefficients the region finds are the reference's stage of the launch arrays. -/
theorem entry_ax (c : Dev nD) : (V m c main_v13 : S64x3.Idx → EReal)
    = Cert.ReferenceIdeal.Read.val_main_v13 (F := Ideal) (m ((c : Thread nD τ).loc main_arg0)) (m ((c : Thread nD τ).loc main_arg3))
        (m ((c : Thread nD τ).loc main_arg5)) := by
  show StableHlo.after hostOps0 (fun b => m (c, b)) (Proc.devRef .tc main_v13) = _
  after_results
  rfl

/-- The affine y-coefficients the region finds are the reference's stage of the launch arrays. -/
theorem entry_ay (c : Dev nD) : (V m c main_v15 : S64x3.Idx → EReal)
    = Cert.ReferenceIdeal.Read.val_main_v15 (F := Ideal) (m ((c : Thread nD τ).loc main_arg0)) (m ((c : Thread nD τ).loc main_arg4))
        (m ((c : Thread nD τ).loc main_arg5)) := by
  show StableHlo.after hostOps0 (fun b => m (c, b)) (Proc.devRef .tc main_v15) = _
  after_results
  rfl

/-- The row of x control points the region finds, read at `(0, n)`, is the launch vector at `n`. -/
theorem entry_px (c : Dev nD) (n : Fin 25) :
    V m c main_v16 (ix2 (0 : Fin 1) n) = m ((c : Thread nD τ).loc main_arg3) (ix1 n) := by
  have e : (V m c main_v16 : S1x25.Idx → EReal) = shapeCast S1x25 (m ((c : Thread nD τ).loc main_arg3)) shapeCasts_S25_S1x25 := by
    show StableHlo.after hostOps0 (fun b => m (c, b)) (Proc.devRef .tc main_v16) = _
    after_results
    rfl
  rw [e]
  exact shapeCast_a_1a_apply _ _ 0 n

/-- The row of y control points the region finds, read at `(0, n)`, is the launch vector at `n`. -/
theorem entry_py (c : Dev nD) (n : Fin 25) :
    V m c main_v17 (ix2 (0 : Fin 1) n) = m ((c : Thread nD τ).loc main_arg4) (ix1 n) := by
  have e : (V m c main_v17 : S1x25.Idx → EReal) = shapeCast S1x25 (m ((c : Thread nD τ).loc main_arg4)) shapeCasts_S25_S1x25 := by
    show StableHlo.after hostOps0 (fun b => m (c, b)) (Proc.devRef .tc main_v17) = _
    after_results
    rfl
  rw [e]
  exact shapeCast_a_1a_apply _ _ 0 n

/-- The program's result after the lines that follow the region: the two arrays the region leaves, stacked. -/
theorem result_eq (c : Dev nD) :
    Pipeline.afterTail₀ cfgs (dats m) 0 (V0 m) [hostOps1] c main_v21
      = stack ((dats m 0 c).arrAt 8 cfg0.N) ((dats m 0 c).arrAt 9 cfg0.N) := by
  have h8 := Pipeline.withArrays_arr spec0 launch0.win.arr_inj c (V0 m c) (fun w => (dats m 0 c).arrAt w cfg0.N) 8
  have h9 := Pipeline.withArrays_arr spec0 launch0.win.arr_inj c (V0 m c) (fun w => (dats m 0 c).arrAt w cfg0.N) 9
  refine Eq.trans ?_ (congr (congrArg stack h8) h9)
  unfold Pipeline.afterTail₀
  show StableHlo.after hostOps1 _ (Proc.devRef .tc main_v21) = _
  after_results
  rfl

end Cert.Tps

end
-- ==== Proof.TpsReference.lean ====
/-
  The reference's two result planes are the warp of its own coefficient arrays.

  The reference forms the same radial values over the whole pixel grid (`[256, 192, 25]`), contracts them with the radial
  weights over the control points, and adds the three affine terms; each of its layout operations (a slice of one
  column of the affine coefficients, a reshape, broadcasts) reads one entry of its operand, so at an index `(b, h, w)`
  the result is the affine part plus `Σₙ W[b,n] · U(h, w, n)`: the function `warp` of the coefficient arrays the
  reference computed, the pixel grids and the control points.
-/
import proofs.«167685_j41068477284473_2_alg».proof.Proof.Gen.ReferenceIdeal.Read
import proofs.«167685_j41068477284473_2_alg».proof.Proof.TpsSpec

noncomputable section

namespace Cert.Tps

open Idealize.ShloMosaic Idealize.ShloMosaic.ValueIdx
open Cert.ReferenceIdeal Cert.ReferenceIdeal.Read

/-- The first result plane (built from the x-coefficients) is the warp. -/
theorem reference_x (x0 : (⟨S64x50, .f32⟩ : BufTy).Contents (Elt Ideal)) (x1 x2 : (⟨S256x192, .f32⟩ : BufTy).Contents (Elt Ideal))
    (x3 x4 : (⟨S25, .f32⟩ : BufTy).Contents (Elt Ideal)) (x5 : (⟨S28x28, .f32⟩ : BufTy).Contents (Elt Ideal)) :
    val_main_v55 (F := Ideal) x0 x1 x2 x3 x4 x5
      = warp (val_main_v13 (F := Ideal) x0 x3 x5) (val_main_v9 (F := Ideal) x0 x3 x5) x1 x2 x3 x4 := by
  funext i
  have a0 : idx_main_v34 (idx_main_v35 (idx_main_v36 (idx_main_v44 i))) = ix2 (i 0) (0 : Fin 3) := by
    funext a; apply Fin.ext; match a with | ⟨0, _⟩ => exact Nat.div_one _ | ⟨1, _⟩ => rfl
  have a1 : idx_main_v37 (idx_main_v38 (idx_main_v39 (idx_main_v41 i))) = ix2 (i 0) (1 : Fin 3) := by
    funext a; apply Fin.ext; match a with | ⟨0, _⟩ => exact Nat.div_one _ | ⟨1, _⟩ => rfl
  have a2 : idx_main_v46 (idx_main_v47 (idx_main_v48 (idx_main_v50 i))) = ix2 (i 0) (2 : Fin 3) := by
    funext a; apply Fin.ext; match a with | ⟨0, _⟩ => exact Nat.div_one _ | ⟨1, _⟩ => rfl
  have g1 : idx_main_v40 (idx_main_v42 i) = ix2 (i 1) (i 2) := by
    funext a; apply Fin.ext; match a with | ⟨0, _⟩ => rfl | ⟨1, _⟩ => rfl
  have g2 : idx_main_v49 (idx_main_v51 i) = ix2 (i 1) (i 2) := by
    funext a; apply Fin.ext; match a with | ⟨0, _⟩ => rfl | ⟨1, _⟩ => rfl
  have w : ∀ k : Fin 25, lidx_main_v54 i k = ix2 (i 0) k := fun k => by
    funext a; apply Fin.ext; match a with | ⟨0, _⟩ => rfl | ⟨1, _⟩ => rfl
  have u1 : ∀ k : Fin 25, idx_main_v16 (idx_main_v18 (ridx_main_v54 i k)) = ix2 (i 1) (i 2) := fun k => by
    funext a; apply Fin.ext; match a with | ⟨0, _⟩ => rfl | ⟨1, _⟩ => rfl
  have u2 : ∀ k : Fin 25, idx_main_v22 (idx_main_v24 (ridx_main_v54 i k)) = ix2 (i 1) (i 2) := fun k => by
    funext a; apply Fin.ext; match a with | ⟨0, _⟩ => rfl | ⟨1, _⟩ => rfl
  have p1 : ∀ k : Fin 25, idx_main_v17 (idx_main_v19 (ridx_main_v54 i k)) = ix1 k := fun k => by
    funext a; apply Fin.ext; match a with | ⟨0, _⟩ => rfl
  have p2 : ∀ k : Fin 25, idx_main_v23 (idx_main_v25 (ridx_main_v54 i k)) = ix1 k := fun k => by
    funext a; apply Fin.ext; match a with | ⟨0, _⟩ => rfl
  simp only [val_main_v55_apply, val_main_v53_apply, val_main_v45_apply, val_main_v44_apply, val_main_v36_apply,
    val_main_v35_apply, val_main_v34_apply, val_main_v43_apply, val_main_v41_apply, val_main_v39_apply,
    val_main_v38_apply, val_main_v37_apply, val_main_v42_apply, val_main_v40_apply, val_main_v52_apply,
    val_main_v50_apply, val_main_v48_apply, val_main_v47_apply, val_main_v46_apply, val_main_v51_apply,
    val_main_v49_apply, val_main_v54_apply, val_main_v33_apply, val_main_v32_apply, val_main_v31_apply,
    val_main_v30_apply, val_main_v29_apply, val_main_cst_apply, val_main_call0_v1_apply, val_main_call0_v0_apply,
    val_main_cst_0_apply, val_main_v28_apply, val_main_v21_apply, val_main_v20_apply, val_main_v18_apply,
    val_main_v16_apply, val_main_v19_apply, val_main_v17_apply, val_main_v27_apply, val_main_v26_apply,
    val_main_v24_apply, val_main_v22_apply, val_main_v25_apply, val_main_v23_apply]
  simp only [a0, a1, a2, g1, g2, w, u1, u2, p1, p2]
  rfl

/-- The second result plane (built from the y-coefficients) is the warp. -/
theorem reference_y (x0 : (⟨S64x50, .f32⟩ : BufTy).Contents (Elt Ideal)) (x1 x2 : (⟨S256x192, .f32⟩ : BufTy).Contents (Elt Ideal))
    (x3 x4 : (⟨S25, .f32⟩ : BufTy).Contents (Elt Ideal)) (x5 : (⟨S28x28, .f32⟩ : BufTy).Contents (Elt Ideal)) :
    val_main_v77 (F := Ideal) x0 x1 x2 x3 x4 x5
      = warp (val_main_v15 (F := Ideal) x0 x4 x5) (val_main_v11 (F := Ideal) x0 x4 x5) x1 x2 x3 x4 := by
  funext i
  have a0 : idx_main_v56 (idx_main_v57 (idx_main_v58 (idx_main_v66 i))) = ix2 (i 0) (0 : Fin 3) := by
    funext a; apply Fin.ext; match a with | ⟨0, _⟩ => exact Nat.div_one _ | ⟨1, _⟩ => rfl
  have a1 : idx_main_v59 (idx_main_v60 (idx_main_v61 (idx_main_v63 i))) = ix2 (i 0) (1 : Fin 3) := by
    funext a; apply Fin.ext; match a with | ⟨0, _⟩ => exact Nat.div_one _ | ⟨1, _⟩ => rfl
  have a2 : idx_main_v68 (idx_main_v69 (idx_main_v70 (idx_main_v72 i))) = ix2 (i 0) (2 : Fin 3) := by
    funext a; apply Fin.ext; match a with | ⟨0, _⟩ => exact Nat.div_one _ | ⟨1, _⟩ => rfl
  have g1 : idx_main_v62 (idx_main_v64 i) = ix2 (i 1) (i 2) := by
    funext a; apply Fin.ext; match a with | ⟨0, _⟩ => rfl | ⟨1, _⟩ => rfl
  have g2 : idx_main_v71 (idx_main_v73 i) = ix2 (i 1) (i 2) := by
    funext a; apply Fin.ext; match a with | ⟨0, _⟩ => rfl | ⟨1, _⟩ => rfl
  have w : ∀ k : Fin 25, lidx_main_v76 i k = ix2 (i 0) k := fun k => by
    funext a; apply Fin.ext; match a with | ⟨0, _⟩ => rfl | ⟨1, _⟩ => rfl
  have u1 : ∀ k : Fin 25, idx_main_v16 (idx_main_v18 (ridx_main_v76 i k)) = ix2 (i 1) (i 2) := fun k => by
    funext a; apply Fin.ext; match a with | ⟨0, _⟩ => rfl | ⟨1, _⟩ => rfl
  have u2 : ∀ k : Fin 25, idx_main_v22 (idx_main_v24 (ridx_main_v76 i k)) = ix2 (i 1) (i 2) := fun k => by
    funext a; apply Fin.ext; match a with | ⟨0, _⟩ => rfl | ⟨1, _⟩ => rfl
  have p1 : ∀ k : Fin 25, idx_main_v17 (idx_main_v19 (ridx_main_v76 i k)) = ix1 k := fun k => by
    funext a; apply Fin.ext; match a with | ⟨0, _⟩ => rfl
  have p2 : ∀ k : Fin 25, idx_main_v23 (idx_main_v25 (ridx_main_v76 i k)) = ix1 k := fun k => by
    funext a; apply Fin.ext; match a with | ⟨0, _⟩ => rfl
  simp only [val_main_v77_apply, val_main_v75_apply, val_main_v67_apply, val_main_v66_apply, val_main_v58_apply,
    val_main_v57_apply, val_main_v56_apply, val_main_v65_apply, val_main_v63_apply, val_main_v61_apply,
    val_main_v60_apply, val_main_v59_apply, val_main_v64_apply, val_main_v62_apply, val_main_v74_apply,
    val_main_v72_apply, val_main_v70_apply, val_main_v69_apply, val_main_v68_apply, val_main_v73_apply,
    val_main_v71_apply, val_main_v76_apply, val_main_v33_apply, val_main_v32_apply, val_main_v31_apply,
    val_main_v30_apply, val_main_v29_apply, val_main_cst_apply, val_main_call0_v1_apply, val_main_call0_v0_apply,
    val_main_cst_0_apply, val_main_v28_apply, val_main_v21_apply, val_main_v20_apply, val_main_v18_apply,
    val_main_v16_apply, val_main_v19_apply, val_main_v17_apply, val_main_v27_apply, val_main_v26_apply,
    val_main_v24_apply, val_main_v22_apply, val_main_v25_apply, val_main_v23_apply]
  simp only [a0, a1, a2, g1, g2, w, u1, u2, p1, p2]
  rfl

end Cert.Tps

end
-- ==== Proof.TpsResult.lean ====
/-
  The kernel's program computes the reference's own two planes, stacked.

  After the region the two output arrays are the warp of the arrays the region found; those are the reference's stages
  of the launch arrays (the coefficients), the launch arrays themselves (the pixel grids), and the control-point vectors
  read back from their rows. So each output array is the reference's plane, and the result the program leaves is the two
  planes stacked along the last axis.
-/
import proofs.«167685_j41068477284473_2_alg».proof.Proof.TpsBlocks
import proofs.«167685_j41068477284473_2_alg».proof.Proof.TpsHost
import proofs.«167685_j41068477284473_2_alg».proof.Proof.TpsReference

noncomputable section

namespace Cert.Tps

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The row of x control points, read entry by entry, is the launch vector. -/
theorem row_px (c : Dev nD) :
    (fun k : S25.Idx => V m c main_v16 (ix2 (0 : Fin 1) (k 0))) = m ((c : Thread nD τ).loc main_arg3) :=
  funext fun k => (entry_px m c (k 0)).trans (congrArg (m ((c : Thread nD τ).loc main_arg3)) (eq_ix1 k).symm)

/-- The row of y control points, read entry by entry, is the launch vector. -/
theorem row_py (c : Dev nD) :
    (fun k : S25.Idx => V m c main_v17 (ix2 (0 : Fin 1) (k 0))) = m ((c : Thread nD τ).loc main_arg4) :=
  funext fun k => (entry_py m c (k 0)).trans (congrArg (m ((c : Thread nD τ).loc main_arg4)) (eq_ix1 k).symm)

/-- The x-plane is the reference's first plane of the launch arrays. -/
theorem planeX_eq (c : Dev nD) : planeX m c
    = Cert.ReferenceIdeal.Read.val_main_v55 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  rw [reference_x]
  unfold planeX
  exact congr (congr (congr (congr (congr (congrArg warp (entry_ax m c)) (entry_wx m c)) (V_main_arg1 m c)) (V_main_arg2 m c))
    (row_px m c)) (row_py m c)

/-- The y-plane is the reference's second plane of the launch arrays. -/
theorem planeY_eq (c : Dev nD) : planeY m c
    = Cert.ReferenceIdeal.Read.val_main_v77 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  rw [reference_y]
  unfold planeY
  exact congr (congr (congr (congr (congr (congrArg warp (entry_ay m c)) (entry_wy m c)) (V_main_arg1 m c)) (V_main_arg2 m c))
    (row_px m c)) (row_py m c)

/-- The two reference planes of the launch arrays, stacked: what both programs leave. -/
def result (c : Dev nD) : S64x256x192x2.Idx → EReal :=
  stack
    (Cert.ReferenceIdeal.Read.val_main_v55 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)))
    (Cert.ReferenceIdeal.Read.val_main_v77 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)))

/-- Every weakly fair execution of the kernel's program ends with its result at the stacked planes and its arguments
    unchanged. -/
theorem kernel_run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v21 (Pipeline.mem_restRefs_of main_v21 (by decide) (by decide))).trans
        ((result_eq m c).trans (congr (congrArg stack ((final_x m c).trans (planeX_eq m c))) ((final_y m c).trans (planeY_eq m c)))),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.Tps

end
-- ==== Proof.lean ====
/-
  The thin-plate-spline grid warp: the Pallas kernel's program and its jnp reference leave the same array.

  Both programs first compute, from the displacements `theta`, the control points `Px`, `Py` and the inverse matrix `Li`,
  the radial weights `W` (`[64, 25]`) and the affine coefficients `A` (`[64, 3]`) of each coordinate, by the same host
  operations. The reference then evaluates, over the whole `[256, 192]` pixel grid,
    `X[b,h,w] = A[b,0] + A[b,1]·gx[h,w] + A[b,2]·gy[h,w] + Σₙ W[b,n]·U[h,w,n]`,  `U = d·log d`,
  `d` the squared distance from pixel `(h, w)` to control point `n` with `0` replaced by `1`, and stacks the x- and
  y-planes along a last axis. The kernel does the same in 8 blocks of 32 pixel rows: per block it forms `U`, flattens the
  pixels, multiplies by the transposed weights on the matrix unit (its operands rounded to bf16, which at the ideal
  instance is the identity) and adds the affine terms in the reference's order. On the extended reals the two differ
  only in the order of the factors `U·W` / `W·U` inside the sum over the 25 control points, and multiplication there
  is commutative: no finiteness of the inputs is used.

  The modules: `TpsSpec` (the warp as one function), `TpsReference` (the reference's planes are the warp), `TpsBody`
  (the kernel body's stored values at an index), `TpsBlocks` (from the blocks the grid points write back to the
  output arrays), `TpsHost` (the host operations around the region), `TpsResult` (the kernel's run with its result
  named). The frames of the two kernel programs are the generated ones; the reference's frame is its generated run with
  the result dropped; the ideal pass rewrote nothing, so `preserves` asks nothing.
-/
import proofs.«167685_j41068477284473_2_alg».proof.Defs
import proofs.«167685_j41068477284473_2_alg».proof.Proof.Gen.Kernel
import proofs.«167685_j41068477284473_2_alg».proof.Proof.Gen.Kernel.Skeleton
import proofs.«167685_j41068477284473_2_alg».proof.Proof.Gen.Kernel.Launch
import proofs.«167685_j41068477284473_2_alg».proof.Proof.Gen.Kernel.Points
import proofs.«167685_j41068477284473_2_alg».proof.Proof.Gen.Kernel.Frame
import proofs.«167685_j41068477284473_2_alg».proof.Proof.Gen.KernelIdeal
import proofs.«167685_j41068477284473_2_alg».proof.Proof.Gen.KernelIdeal.Skeleton
import proofs.«167685_j41068477284473_2_alg».proof.Proof.Gen.KernelIdeal.Launch
import proofs.«167685_j41068477284473_2_alg».proof.Proof.Gen.KernelIdeal.Points
import proofs.«167685_j41068477284473_2_alg».proof.Proof.Gen.KernelIdeal.Frame
import proofs.«167685_j41068477284473_2_alg».proof.Proof.Gen.ReferenceIdeal
import proofs.«167685_j41068477284473_2_alg».proof.Proof.Gen.Pre_finite_inputs
import proofs.«167685_j41068477284473_2_alg».proof.Proof.Gen.ReferenceIdeal.Run
import proofs.«167685_j41068477284473_2_alg».proof.Proof.Gen.ReferenceIdeal.Read
import proofs.«167685_j41068477284473_2_alg».proof.Proof.TpsResult
import Idealize.ShloMosaic.Adequacy
import Idealize.ShloMosaic.Init

noncomputable section

namespace Cert.Proof

open Idealize.ShloMosaic Idealize.SL.Sem

/-- The kernel's program as printed runs and keeps its arguments: the generated frame. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the two reference planes stacked: the kernel's
    by its run read back, the reference's because its result is by definition that stack. -/
theorem algebraic : Cert.algebraic_KernelIdeal_ReferenceIdeal := by
  intro m ρ m' ρ' _ hagree
  refine ⟨fun c => Cert.Tps.result m c, Cert.Tps.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v80_eq, (hagree c).1, (hagree c).2.1, (hagree c).2.2.1, (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
